-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x10 .f32) (main_arg10 : FVec F S10 .f32) (main_arg11 : FVec F S10x1 .f32) (main_arg12 : FVec F S1 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x1 .f32 := Host.absf main_arg11
  let main_cst_16 : FVec F S_ .f32 := constant S_ .f32 0x7F800000#32
  let main_v45 : FVec F S10x1 .f32 := broadcastInDim S10x1 ![] bcast_S_S10x1 main_cst_16
  let main_v46 : IVec S10x1 1 := cmpf .olt main_v44 main_v45
  let main_c_17 : IVec S_ 1 := constantI S_ 1 1#1
  let main_v47 : IVec S_ 1 := (fun x v => Host.reduce IntOp.andi x v reducesTo_S10x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_arg11 : FVec F S10x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) (main_arg11 : FVec F S10x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S10x1 : Shape := ⟨2, ![10, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S1x10 : Shape := ⟨2, ![1, 10]⟩
abbrev S1x1 : Shape := ⟨2, ![1, 1]⟩
abbrev S128x10 : Shape := ⟨2, ![128, 10]⟩

abbrev nBuf : Space → Nat
  | .hbm => 125
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S10x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000, .i32⟩
  | .hbm, ⟨18, _⟩ => ⟨S1700000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1700000x1, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S_, .f32⟩
  | .hbm, ⟨107, _⟩ => ⟨S128x64, .f32⟩
  | .hbm, ⟨108, _⟩ => ⟨S100000x1, .i32⟩
  | .hbm, ⟨109, _⟩ => ⟨S128x64, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S128, .f32⟩
  | .hbm, ⟨114, _⟩ => ⟨S100000x1, .i32⟩
  | .hbm, ⟨115, _⟩ => ⟨S128, .f32⟩
  | .hbm, ⟨116, _⟩ => ⟨S_, .f32⟩
  | .hbm, ⟨117, _⟩ => ⟨S128, .f32⟩
  | .hbm, ⟨118, _⟩ => ⟨S128, .f32⟩
  | .hbm, ⟨119, _⟩ => ⟨S128x1, .f32⟩
  | .hbm, ⟨120, _⟩ => ⟨S128x64, .f32⟩
  | .hbm, ⟨121, _⟩ => ⟨S128x64, .f32⟩
  | .hbm, ⟨122, _⟩ => ⟨S1x10, .f32⟩
  | .hbm, ⟨123, _⟩ => ⟨S1x1, .f32⟩
  | .hbm, ⟨124, _⟩ => ⟨S128x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S128x64, .f32⟩
  | .local _ .vmem, ⟨23, _⟩ => ⟨S64x10, .f32⟩
  | .local _ .vmem, ⟨24, _⟩ => ⟨S1x10, .f32⟩
  | .local _ .vmem, ⟨25, _⟩ => ⟨S10x1, .f32⟩
  | .local _ .vmem, ⟨26, _⟩ => ⟨S1x1, .f32⟩
  | .local _ .vmem, ⟨27, _⟩ => ⟨S128x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S10_S1x10 : S10.ShapeCasts S1x10
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S10x1_S10x1_0_0 : ∀ a, (![0, 0] : Fin 2 → Nat) a + S10x1.size a ≤ S10x1.size a
  h_S10x1 : 0 < S10x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []
  dot_S128x10_S10x1_S128x1_1_0_0_1_n_n_wf : DotDims.WF S128x10 S10x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S128x64.size a
  hwx4_0 : ∀ i : grid4.Coords, EltTy.bits .f32 = 32 ∨ (Rect.block (s := S128x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10.size a ≤ S64x10.size a
  hwx4_1 : ∀ i : grid4.Coords, EltTy.bits .f32 = 32 ∨ (Rect.block (s := S64x10) S64x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10x1.size a ≤ S10x1.size a
  hwx4_3 : ∀ i : grid4.Coords, EltTy.bits .f32 = 32 ∨ (Rect.block (s := S10x1) S10x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf
def dot_S128x10_S10x1_S128x1_1_0_0_1_n_n : DotDims S128x10 S10x1 S128x1 where
  lhsContracting := [1]
  rhsContracting := [0]
  lhsNonContracting := [0]
  rhsNonContracting := [1]
  lhsBatch := []
  rhsBatch := []
  wf := dot_S128x10_S10x1_S128x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v85) S128x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S10x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S128x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S10x1 : Shape := ⟨2, ![10, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S10x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1700000x1, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x64, .f32⟩
  | 87 => ⟨S1700000x64, .f32⟩
  | 88 => ⟨S_, .f32⟩
  | 89 => ⟨S100000x64, .f32⟩
  | 90 => ⟨S1700000x1, .i32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x64, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S128x64, .f32⟩
  | 122 => ⟨S100000x1, .i32⟩
  | 123 => ⟨S128x64, .f32⟩
  | 124 => ⟨S_, .f32⟩
  | 125 => ⟨S100000, .f32⟩
  | 126 => ⟨S_, .f32⟩
  | 127 => ⟨S128, .f32⟩
  | _ => ⟨S100000x64, .f32⟩

abbrev hbmTy0_1 (i : Nat) : BufTy := match i % 128 with
  | 0 => ⟨S100000x1, .i32⟩
  | 1 => ⟨S128, .f32⟩
  | 2 => ⟨S_, .f32⟩
  | 3 => ⟨S128, .f32⟩
  | 4 => ⟨S128, .f32⟩
  | 5 => ⟨S128x1, .f32⟩
  | 6 => ⟨S128x64, .f32⟩
  | 7 => ⟨S128x64, .f32⟩
  | 8 => ⟨S128x10, .f32⟩
  | 9 => ⟨S1x10, .f32⟩
  | 10 => ⟨S128x10, .f32⟩
  | 11 => ⟨S128x10, .f32⟩
  | 12 => ⟨S_, .f32⟩
  | 13 => ⟨S128x10, .f32⟩
  | 14 => ⟨S128x10, .f32⟩
  | 15 => ⟨S128x1, .f32⟩
  | 16 => ⟨S1x1, .f32⟩
  | 17 => ⟨S128x1, .f32⟩
  | 18 => ⟨S128x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_cst : Ref sig .tc := ⟨.hbm, 95, rfl⟩
abbrev main_call2_v0 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call3_cst : Ref sig .tc := ⟨.hbm, 117, rfl⟩
abbrev main_call3_v0 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_16 : Ref sig .tc := ⟨.hbm, 124, rfl⟩
abbrev main_v85 : Ref sig .tc := ⟨.hbm, 125, rfl⟩
abbrev main_cst_17 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call4_cst : Ref sig .tc := ⟨.hbm, 140, rfl⟩
abbrev main_call4_v0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  bcast_S_S128x10 : S_.BroadcastsInDim S128x10 (![] : Fin 0 → Fin S128x10.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []
  dot_S128x10_S10x1_S128x1_1_0_0_1_n_n_wf : DotDims.WF S128x10 S10x1 S128x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf
def dot_S128x10_S10x1_S128x1_1_0_0_1_n_n : DotDims S128x10 S10x1 S128x1 where
  lhsContracting := [1]
  rhsContracting := [0]
  lhsNonContracting := [0]
  rhsNonContracting := [1]
  lhsBatch := []
  rhsBatch := []
  wf := dot_S128x10_S10x1_S128x1_1_0_0_1_n_n_wf

class Facts : Prop extends Facts₀ where

variable [Facts]
-- ==== Proof.KernelRun.lean ====
/-
  The idealized kernel's run with its result named. Its @main is twelve segments: seven stretches of host operations and
  five launches. The generated frame carries every unscoped buffer of the TensorCore through them as a fold of boundary
  contents, W0 (the launch memory) to W12 (after the last launch), and concludes that the thirteen argument arrays end as
  launched. The same chain of segments also says where the result buffer ends: at the last boundary's contents W12 read at
  that buffer. That is stated here, beside the arguments, for any float instance; reading W12 at the result as a function
  of the arguments is the work of the other modules.
-/
import proofs.«143302_j64991445123451_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the arguments as
    launched. -/
theorem run : θ_run defs (onTc (τ := τ) (main (F := F))) ⟨m, fun _ => 0, ρ⟩ (fun r => ∀ c : Dev nD,
      r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Named

end
-- ==== Proof.Edges.lean ====
/-
  The graph's edge lists, the same on both sides. Before its first launch the kernel's @main computes, from the edge index
  array alone: the source list (row 0 of the edge index followed by 0 … 99999, the self loops), the destination list (row 1
  followed by the same), the in-degree of every node as a scatter-add of ones along the destination list, its inverse square
  root where the degree is positive and 0 elsewhere, and per edge the product of the two end points' values, kept as a column.
  The reference's @main begins with the same operations on the same literals, in a slightly different order. The three
  stretches of host operations are read one at a time, each value against the reference's own stage of the edge index array;
  no operation is opened.
-/
import proofs.«143302_j64991445123451_2_alg».proof.Proof.Gen.KernelIdeal.Frame
import proofs.«143302_j64991445123451_2_alg».proof.Proof.RefRead
import Idealize.ShloMosaic.Lib.StableHlo.Run

set_option maxRecDepth 16384

noncomputable section

namespace Cert.KernelIdeal.Edges

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v12 val_main_v13 val_main_cst_2 val_main_v14 val_main_v30)

variable (m : (ℓ : Loc nD τ sig) → Buf (Elt Ideal) ℓ) (ρ : Dev nD → PrngReg)

/-! ## The arguments as launched -/

abbrev arg0 (c : Dev nD) := m ((c.tc : Thread nD τ).loc main_arg0)
abbrev arg1 (c : Dev nD) := m ((c.tc : Thread nD τ).loc main_arg1)
abbrev arg2 (c : Dev nD) := m ((c.tc : Thread nD τ).loc main_arg2)
abbrev arg3 (c : Dev nD) := m ((c.tc : Thread nD τ).loc main_arg3)
abbrev arg4 (c : Dev nD) := m ((c.tc : Thread nD τ).loc main_arg4)
abbrev arg5 (c : Dev nD) := m ((c.tc : Thread nD τ).loc main_arg5)
abbrev arg6 (c : Dev nD) := m ((c.tc : Thread nD τ).loc main_arg6)
abbrev arg7 (c : Dev nD) := m ((c.tc : Thread nD τ).loc main_arg7)
abbrev arg8 (c : Dev nD) := m ((c.tc : Thread nD τ).loc main_arg8)
abbrev arg9 (c : Dev nD) := m ((c.tc : Thread nD τ).loc main_arg9)
abbrev arg10 (c : Dev nD) := m ((c.tc : Thread nD τ).loc main_arg10)
abbrev arg11 (c : Dev nD) := m ((c.tc : Thread nD τ).loc main_arg11)
abbrev arg12 (c : Dev nD) := m ((c.tc : Thread nD τ).loc main_arg12)

/-! ## After the first stretch: the lists, the degree test, the inverse square roots -/

/-- The source list. -/
theorem src_first (c : Dev nD) : W1 m ρ c (Proc.devRef .tc main_v5) = val_main_v3 (F := Ideal) (m ((c.tc : Thread nD τ).loc main_arg1)) := by
  show StableHlo.after hostOps0 (W0 m ρ c) (Proc.devRef .tc main_v5) = _
  after_results
  rfl

/-- The destination list. -/
theorem dst_first (c : Dev nD) : W1 m ρ c (Proc.devRef .tc main_v6) = val_main_v6 (F := Ideal) (m ((c.tc : Thread nD τ).loc main_arg1)) := by
  show StableHlo.after hostOps0 (W0 m ρ c) (Proc.devRef .tc main_v6) = _
  after_results
  rfl

/-- Where the in-degree is positive. -/
theorem positive_first (c : Dev nD) : W1 m ρ c (Proc.devRef .tc main_v12) = val_main_v12 (F := Ideal) (m ((c.tc : Thread nD τ).loc main_arg1)) := by
  show StableHlo.after hostOps0 (W0 m ρ c) (Proc.devRef .tc main_v12) = _
  after_results
  rfl

/-- The inverse square root of the in-degree. -/
theorem rsqrt_first (c : Dev nD) : W1 m ρ c (Proc.devRef .tc main_v13) = val_main_v13 (F := Ideal) (m ((c.tc : Thread nD τ).loc main_arg1)) := by
  show StableHlo.after hostOps0 (W0 m ρ c) (Proc.devRef .tc main_v13) = _
  after_results
  rfl

/-- The zero the test selects elsewhere. -/
theorem zero_first (c : Dev nD) : W1 m ρ c (Proc.devRef .tc main_cst_2) = val_main_cst_2 (F := Ideal) := by
  show StableHlo.after hostOps0 (W0 m ρ c) (Proc.devRef .tc main_cst_2) = _
  after_results
  rfl

/-! ## The module-local function's typed references

The @_where call is printed with references that carry their array type; reading a buffer through one, or writing through one,
is the identity once the buffer table is read at that buffer. Stated with the contents a variable, so that nothing else is
unfolded; a write followed by a read through the same reference is the identity for any reference at all. -/

theorem read_after_write {Val : EltTy → Type} {T : BufTy} (x : TRef sig T) (w : T.Contents Val) : x.ofBuf (x.toBuf w) = w := by
  obtain ⟨r, rfl, _, _⟩ := x
  rfl

theorem read_positive (v : (⟨S100000, .i1⟩ : BufTy).Contents (Elt Ideal)) :
    (TRef.of (sig := sig) (T := ⟨S100000, .i1⟩) main_v12).ofBuf v = v := rfl

theorem read_rsqrt (v : (⟨S100000, .f32⟩ : BufTy).Contents (Elt Ideal)) :
    (TRef.of (sig := sig) (T := ⟨S100000, .f32⟩) main_v13).ofBuf v = v := rfl

theorem read_zero (v : (⟨S_, .f32⟩ : BufTy).Contents (Elt Ideal)) :
    (TRef.of (sig := sig) (T := ⟨S_, .f32⟩) main_cst_2).ofBuf v = v := rfl

theorem write_factor (v : (⟨S100000, .f32⟩ : BufTy).Contents (Elt Ideal)) :
    (TRef.of (sig := sig) (T := ⟨S100000, .f32⟩) main_v14).toBuf v = v := rfl

/-! ## After the second stretch: the node factors -/

/-- The source list is kept. -/
theorem src_second (c : Dev nD) : W2 m ρ c (Proc.devRef .tc main_v5) = val_main_v3 (F := Ideal) (m ((c.tc : Thread nD τ).loc main_arg1)) :=
  (show StableHlo.after hostOps0_1 (W1 m ρ c) (Proc.devRef .tc main_v5) = W1 m ρ c (Proc.devRef .tc main_v5) by
    after_results).trans (src_first m ρ c)

/-- The destination list is kept. -/
theorem dst_second (c : Dev nD) : W2 m ρ c (Proc.devRef .tc main_v6) = val_main_v6 (F := Ideal) (m ((c.tc : Thread nD τ).loc main_arg1)) :=
  (show StableHlo.after hostOps0_1 (W1 m ρ c) (Proc.devRef .tc main_v6) = W1 m ρ c (Proc.devRef .tc main_v6) by
    after_results).trans (dst_first m ρ c)

/-- The node factor: the inverse square root where the degree is positive, zero elsewhere. -/
theorem factor_second (c : Dev nD) : W2 m ρ c (Proc.devRef .tc main_v14) = val_main_v14 (F := Ideal) (m ((c.tc : Thread nD τ).loc main_arg1)) := by
  have stretch : ∀ V : Valuation τ sig (Elt Ideal),
      V (Proc.devRef .tc main_v12) = val_main_v12 (F := Ideal) (m ((c.tc : Thread nD τ).loc main_arg1)) →
      V (Proc.devRef .tc main_v13) = val_main_v13 (F := Ideal) (m ((c.tc : Thread nD τ).loc main_arg1)) →
      V (Proc.devRef .tc main_cst_2) = val_main_cst_2 (F := Ideal) →
      StableHlo.after hostOps0_1 V (Proc.devRef .tc main_v14) = val_main_v14 (F := Ideal) (m ((c.tc : Thread nD τ).loc main_arg1)) := by
    intro V h0 h1 h2
    after_results
    rw [h0, h1, h2]
    rw [read_after_write, read_after_write, read_positive, read_rsqrt, read_zero, write_factor]
    rfl
  exact stretch (W1 m ρ c) (positive_first m ρ c) (rsqrt_first m ρ c) (zero_first m ρ c)
/-! ## When the first launch is entered -/

/-- The source list. -/
theorem src_entry (c : Dev nD) : W3 m ρ c (Proc.devRef .tc main_v5) = val_main_v3 (F := Ideal) (m ((c.tc : Thread nD τ).loc main_arg1)) :=
  (show StableHlo.after hostOps0_2 (W2 m ρ c) (Proc.devRef .tc main_v5) = W2 m ρ c (Proc.devRef .tc main_v5) by
    after_results).trans (src_second m ρ c)

/-- The destination list. -/
theorem dst_entry (c : Dev nD) : W3 m ρ c (Proc.devRef .tc main_v6) = val_main_v6 (F := Ideal) (m ((c.tc : Thread nD τ).loc main_arg1)) :=
  (show StableHlo.after hostOps0_2 (W2 m ρ c) (Proc.devRef .tc main_v6) = W2 m ρ c (Proc.devRef .tc main_v6) by
    after_results).trans (dst_second m ρ c)

/-- The per-edge normalisation column: the product of the two end points' factors. -/
theorem nrm_entry (c : Dev nD) : W3 m ρ c (Proc.devRef .tc main_v30) = val_main_v30 (F := Ideal) (m ((c.tc : Thread nD τ).loc main_arg1)) := by
  have stretch : ∀ V : Valuation τ sig (Elt Ideal),
      V (Proc.devRef .tc main_v14) = val_main_v14 (F := Ideal) (m ((c.tc : Thread nD τ).loc main_arg1)) →
      V (Proc.devRef .tc main_v5) = val_main_v3 (F := Ideal) (m ((c.tc : Thread nD τ).loc main_arg1)) →
      V (Proc.devRef .tc main_v6) = val_main_v6 (F := Ideal) (m ((c.tc : Thread nD τ).loc main_arg1)) →
      StableHlo.after hostOps0_2 V (Proc.devRef .tc main_v30) = val_main_v30 (F := Ideal) (m ((c.tc : Thread nD τ).loc main_arg1)) := by
    intro V h0 h1 h2
    after_results_simp
    rw [h0, h1, h2]
    rfl
  exact stretch (W2 m ρ c) (factor_second m ρ c) (src_second m ρ c) (dst_second m ρ c)

end Cert.KernelIdeal.Edges

end
-- ==== Proof.Carried.lean ====
/-
  What the kernel's @main leaves alone. Its twelve segments (seven stretches of host operations, five launches) each write their
  own results and nothing else: an argument array is read, never written, so at whichever boundary a later segment reads it, it
  still holds its launch contents; and the three values computed from the edge index before the first launch — the source
  list, the destination list and the per-edge normalisation column — are read again after the first, second and third
  launch, still as the first launch found them. Each fact is a walk back through the boundaries: a stretch that does not write a
  buffer leaves it, a launch leaves every buffer that is not one of its own arrays.
-/
import proofs.«143302_j64991445123451_2_alg».proof.Proof.Gen.KernelIdeal.Frame
import Idealize.ShloMosaic.Lib.StableHlo.Run
import Idealize.ShloMosaic.PureOps.Ideal

set_option maxRecDepth 16384

noncomputable section

namespace Cert.KernelIdeal.Carried

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, each at the last boundary where a segment reads it -/

theorem arg0_entry (c : Dev nD) : W3 m ρ c (Proc.devRef .tc main_arg0) = m ((c.tc : Thread nD τ).loc main_arg0) :=
  calc W3 m ρ c (Proc.devRef .tc main_arg0)
    _ = W2 m ρ c (Proc.devRef .tc main_arg0) := (by show StableHlo.after hostOps0_2 (W2 m ρ c) (Proc.devRef .tc main_arg0) = W2 m ρ c (Proc.devRef .tc main_arg0); after_results)
    _ = W1 m ρ c (Proc.devRef .tc main_arg0) := (by show StableHlo.after hostOps0_1 (W1 m ρ c) (Proc.devRef .tc main_arg0) = W1 m ρ c (Proc.devRef .tc main_arg0); after_results)
    _ = W0 m ρ c (Proc.devRef .tc main_arg0) := (by show StableHlo.after hostOps0 (W0 m ρ c) (Proc.devRef .tc main_arg0) = W0 m ρ c (Proc.devRef .tc main_arg0); after_results)
    _ = m ((c.tc : Thread nD τ).loc main_arg0) := rfl

theorem arg3_entry (c : Dev nD) : W3 m ρ c (Proc.devRef .tc main_arg3) = m ((c.tc : Thread nD τ).loc main_arg3) :=
  calc W3 m ρ c (Proc.devRef .tc main_arg3)
    _ = W2 m ρ c (Proc.devRef .tc main_arg3) := (by show StableHlo.after hostOps0_2 (W2 m ρ c) (Proc.devRef .tc main_arg3) = W2 m ρ c (Proc.devRef .tc main_arg3); after_results)
    _ = W1 m ρ c (Proc.devRef .tc main_arg3) := (by show StableHlo.after hostOps0_1 (W1 m ρ c) (Proc.devRef .tc main_arg3) = W1 m ρ c (Proc.devRef .tc main_arg3); after_results)
    _ = W0 m ρ c (Proc.devRef .tc main_arg3) := (by show StableHlo.after hostOps0 (W0 m ρ c) (Proc.devRef .tc main_arg3) = W0 m ρ c (Proc.devRef .tc main_arg3); after_results)
    _ = m ((c.tc : Thread nD τ).loc main_arg3) := rfl

theorem arg4_entry (c : Dev nD) : W3 m ρ c (Proc.devRef .tc main_arg4) = m ((c.tc : Thread nD τ).loc main_arg4) :=
  calc W3 m ρ c (Proc.devRef .tc main_arg4)
    _ = W2 m ρ c (Proc.devRef .tc main_arg4) := (by show StableHlo.after hostOps0_2 (W2 m ρ c) (Proc.devRef .tc main_arg4) = W2 m ρ c (Proc.devRef .tc main_arg4); after_results)
    _ = W1 m ρ c (Proc.devRef .tc main_arg4) := (by show StableHlo.after hostOps0_1 (W1 m ρ c) (Proc.devRef .tc main_arg4) = W1 m ρ c (Proc.devRef .tc main_arg4); after_results)
    _ = W0 m ρ c (Proc.devRef .tc main_arg4) := (by show StableHlo.after hostOps0 (W0 m ρ c) (Proc.devRef .tc main_arg4) = W0 m ρ c (Proc.devRef .tc main_arg4); after_results)
    _ = m ((c.tc : Thread nD τ).loc main_arg4) := rfl

theorem arg4_at4 (c : Dev nD) : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = m ((c.tc : Thread nD τ).loc main_arg4) := arg4_entry m ρ c

theorem arg5_entry (c : Dev nD) : W3 m ρ c (Proc.devRef .tc main_arg5) = m ((c.tc : Thread nD τ).loc main_arg5) :=
  calc W3 m ρ c (Proc.devRef .tc main_arg5)
    _ = W2 m ρ c (Proc.devRef .tc main_arg5) := (by show StableHlo.after hostOps0_2 (W2 m ρ c) (Proc.devRef .tc main_arg5) = W2 m ρ c (Proc.devRef .tc main_arg5); after_results)
    _ = W1 m ρ c (Proc.devRef .tc main_arg5) := (by show StableHlo.after hostOps0_1 (W1 m ρ c) (Proc.devRef .tc main_arg5) = W1 m ρ c (Proc.devRef .tc main_arg5); after_results)
    _ = W0 m ρ c (Proc.devRef .tc main_arg5) := (by show StableHlo.after hostOps0 (W0 m ρ c) (Proc.devRef .tc main_arg5) = W0 m ρ c (Proc.devRef .tc main_arg5); after_results)
    _ = m ((c.tc : Thread nD τ).loc main_arg5) := rfl

theorem arg5_at5 (c : Dev nD) : W5 m ρ c (Proc.devRef .tc main_arg5) = m ((c.tc : Thread nD τ).loc main_arg5) :=
  calc W5 m ρ c (Proc.devRef .tc main_arg5)
    _ = W4 m ρ c (Proc.devRef .tc main_arg5) := (by show StableHlo.after hostOps1 (W4 m ρ c) (Proc.devRef .tc main_arg5) = W4 m ρ c (Proc.devRef .tc main_arg5); after_results)
    _ = W3 m ρ c (Proc.devRef .tc main_arg5) := W4_of_ne m ρ c main_arg5 (by decide)
    _ = m ((c.tc : Thread nD τ).loc main_arg5) := arg5_entry m ρ c

theorem arg6_entry (c : Dev nD) : W3 m ρ c (Proc.devRef .tc main_arg6) = m ((c.tc : Thread nD τ).loc main_arg6) :=
  calc W3 m ρ c (Proc.devRef .tc main_arg6)
    _ = W2 m ρ c (Proc.devRef .tc main_arg6) := (by show StableHlo.after hostOps0_2 (W2 m ρ c) (Proc.devRef .tc main_arg6) = W2 m ρ c (Proc.devRef .tc main_arg6); after_results)
    _ = W1 m ρ c (Proc.devRef .tc main_arg6) := (by show StableHlo.after hostOps0_1 (W1 m ρ c) (Proc.devRef .tc main_arg6) = W1 m ρ c (Proc.devRef .tc main_arg6); after_results)
    _ = W0 m ρ c (Proc.devRef .tc main_arg6) := (by show StableHlo.after hostOps0 (W0 m ρ c) (Proc.devRef .tc main_arg6) = W0 m ρ c (Proc.devRef .tc main_arg6); after_results)
    _ = m ((c.tc : Thread nD τ).loc main_arg6) := rfl

theorem arg6_at6 (c : Dev nD) : W6 m ρ c (Proc.devRef .tc main_arg6) = m ((c.tc : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := (by show StableHlo.after hostOps1 (W4 m ρ c) (Proc.devRef .tc main_arg6) = W4 m ρ c (Proc.devRef .tc main_arg6); after_results)
    _ = W3 m ρ c (Proc.devRef .tc main_arg6) := W4_of_ne m ρ c main_arg6 (by decide)
    _ = m ((c.tc : Thread nD τ).loc main_arg6) := arg6_entry m ρ c

theorem arg7_entry (c : Dev nD) : W3 m ρ c (Proc.devRef .tc main_arg7) = m ((c.tc : Thread nD τ).loc main_arg7) :=
  calc W3 m ρ c (Proc.devRef .tc main_arg7)
    _ = W2 m ρ c (Proc.devRef .tc main_arg7) := (by show StableHlo.after hostOps0_2 (W2 m ρ c) (Proc.devRef .tc main_arg7) = W2 m ρ c (Proc.devRef .tc main_arg7); after_results)
    _ = W1 m ρ c (Proc.devRef .tc main_arg7) := (by show StableHlo.after hostOps0_1 (W1 m ρ c) (Proc.devRef .tc main_arg7) = W1 m ρ c (Proc.devRef .tc main_arg7); after_results)
    _ = W0 m ρ c (Proc.devRef .tc main_arg7) := (by show StableHlo.after hostOps0 (W0 m ρ c) (Proc.devRef .tc main_arg7) = W0 m ρ c (Proc.devRef .tc main_arg7); after_results)
    _ = m ((c.tc : Thread nD τ).loc main_arg7) := rfl

theorem arg7_at7 (c : Dev nD) : W7 m ρ c (Proc.devRef .tc main_arg7) = m ((c.tc : Thread nD τ).loc main_arg7) :=
  calc W7 m ρ c (Proc.devRef .tc main_arg7)
    _ = W6 m ρ c (Proc.devRef .tc main_arg7) := (by show StableHlo.after hostOps2 (W6 m ρ c) (Proc.devRef .tc main_arg7) = W6 m ρ c (Proc.devRef .tc main_arg7); after_results)
    _ = W5 m ρ c (Proc.devRef .tc main_arg7) := W6_of_ne m ρ c main_arg7 (by decide)
    _ = W4 m ρ c (Proc.devRef .tc main_arg7) := (by show StableHlo.after hostOps1 (W4 m ρ c) (Proc.devRef .tc main_arg7) = W4 m ρ c (Proc.devRef .tc main_arg7); after_results)
    _ = W3 m ρ c (Proc.devRef .tc main_arg7) := W4_of_ne m ρ c main_arg7 (by decide)
    _ = m ((c.tc : Thread nD τ).loc main_arg7) := arg7_entry m ρ c

theorem arg8_entry (c : Dev nD) : W3 m ρ c (Proc.devRef .tc main_arg8) = m ((c.tc : Thread nD τ).loc main_arg8) :=
  calc W3 m ρ c (Proc.devRef .tc main_arg8)
    _ = W2 m ρ c (Proc.devRef .tc main_arg8) := (by show StableHlo.after hostOps0_2 (W2 m ρ c) (Proc.devRef .tc main_arg8) = W2 m ρ c (Proc.devRef .tc main_arg8); after_results)
    _ = W1 m ρ c (Proc.devRef .tc main_arg8) := (by show StableHlo.after hostOps0_1 (W1 m ρ c) (Proc.devRef .tc main_arg8) = W1 m ρ c (Proc.devRef .tc main_arg8); after_results)
    _ = W0 m ρ c (Proc.devRef .tc main_arg8) := (by show StableHlo.after hostOps0 (W0 m ρ c) (Proc.devRef .tc main_arg8) = W0 m ρ c (Proc.devRef .tc main_arg8); after_results)
    _ = m ((c.tc : Thread nD τ).loc main_arg8) := rfl

theorem arg8_at8 (c : Dev nD) : W8 m ρ c (Proc.devRef .tc main_arg8) = m ((c.tc : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := (by show StableHlo.after hostOps2 (W6 m ρ c) (Proc.devRef .tc main_arg8) = W6 m ρ c (Proc.devRef .tc main_arg8); after_results)
    _ = W5 m ρ c (Proc.devRef .tc main_arg8) := W6_of_ne m ρ c main_arg8 (by decide)
    _ = W4 m ρ c (Proc.devRef .tc main_arg8) := (by show StableHlo.after hostOps1 (W4 m ρ c) (Proc.devRef .tc main_arg8) = W4 m ρ c (Proc.devRef .tc main_arg8); after_results)
    _ = W3 m ρ c (Proc.devRef .tc main_arg8) := W4_of_ne m ρ c main_arg8 (by decide)
    _ = m ((c.tc : Thread nD τ).loc main_arg8) := arg8_entry m ρ c

theorem arg2_entry (c : Dev nD) : W3 m ρ c (Proc.devRef .tc main_arg2) = m ((c.tc : Thread nD τ).loc main_arg2) :=
  calc W3 m ρ c (Proc.devRef .tc main_arg2)
    _ = W2 m ρ c (Proc.devRef .tc main_arg2) := (by show StableHlo.after hostOps0_2 (W2 m ρ c) (Proc.devRef .tc main_arg2) = W2 m ρ c (Proc.devRef .tc main_arg2); after_results)
    _ = W1 m ρ c (Proc.devRef .tc main_arg2) := (by show StableHlo.after hostOps0_1 (W1 m ρ c) (Proc.devRef .tc main_arg2) = W1 m ρ c (Proc.devRef .tc main_arg2); after_results)
    _ = W0 m ρ c (Proc.devRef .tc main_arg2) := (by show StableHlo.after hostOps0 (W0 m ρ c) (Proc.devRef .tc main_arg2) = W0 m ρ c (Proc.devRef .tc main_arg2); after_results)
    _ = m ((c.tc : Thread nD τ).loc main_arg2) := rfl

theorem arg2_at10 (c : Dev nD) : W10 m ρ c (Proc.devRef .tc main_arg2) = m ((c.tc : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := (by show StableHlo.after hostOps3 (W8 m ρ c) (Proc.devRef .tc main_arg2) = W8 m ρ c (Proc.devRef .tc main_arg2); after_results)
    _ = W7 m ρ c (Proc.devRef .tc main_arg2) := W8_of_ne m ρ c main_arg2 (by decide)
    _ = W6 m ρ c (Proc.devRef .tc main_arg2) := (by show StableHlo.after hostOps2 (W6 m ρ c) (Proc.devRef .tc main_arg2) = W6 m ρ c (Proc.devRef .tc main_arg2); after_results)
    _ = W5 m ρ c (Proc.devRef .tc main_arg2) := W6_of_ne m ρ c main_arg2 (by decide)
    _ = W4 m ρ c (Proc.devRef .tc main_arg2) := (by show StableHlo.after hostOps1 (W4 m ρ c) (Proc.devRef .tc main_arg2) = W4 m ρ c (Proc.devRef .tc main_arg2); after_results)
    _ = W3 m ρ c (Proc.devRef .tc main_arg2) := W4_of_ne m ρ c main_arg2 (by decide)
    _ = m ((c.tc : Thread nD τ).loc main_arg2) := arg2_entry m ρ c

theorem arg10_entry (c : Dev nD) : W3 m ρ c (Proc.devRef .tc main_arg10) = m ((c.tc : Thread nD τ).loc main_arg10) :=
  calc W3 m ρ c (Proc.devRef .tc main_arg10)
    _ = W2 m ρ c (Proc.devRef .tc main_arg10) := (by show StableHlo.after hostOps0_2 (W2 m ρ c) (Proc.devRef .tc main_arg10) = W2 m ρ c (Proc.devRef .tc main_arg10); after_results)
    _ = W1 m ρ c (Proc.devRef .tc main_arg10) := (by show StableHlo.after hostOps0_1 (W1 m ρ c) (Proc.devRef .tc main_arg10) = W1 m ρ c (Proc.devRef .tc main_arg10); after_results)
    _ = W0 m ρ c (Proc.devRef .tc main_arg10) := (by show StableHlo.after hostOps0 (W0 m ρ c) (Proc.devRef .tc main_arg10) = W0 m ρ c (Proc.devRef .tc main_arg10); after_results)
    _ = m ((c.tc : Thread nD τ).loc main_arg10) := rfl

theorem arg10_at10 (c : Dev nD) : W10 m ρ c (Proc.devRef .tc main_arg10) = m ((c.tc : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := (by show StableHlo.after hostOps3 (W8 m ρ c) (Proc.devRef .tc main_arg10) = W8 m ρ c (Proc.devRef .tc main_arg10); after_results)
    _ = W7 m ρ c (Proc.devRef .tc main_arg10) := W8_of_ne m ρ c main_arg10 (by decide)
    _ = W6 m ρ c (Proc.devRef .tc main_arg10) := (by show StableHlo.after hostOps2 (W6 m ρ c) (Proc.devRef .tc main_arg10) = W6 m ρ c (Proc.devRef .tc main_arg10); after_results)
    _ = W5 m ρ c (Proc.devRef .tc main_arg10) := W6_of_ne m ρ c main_arg10 (by decide)
    _ = W4 m ρ c (Proc.devRef .tc main_arg10) := (by show StableHlo.after hostOps1 (W4 m ρ c) (Proc.devRef .tc main_arg10) = W4 m ρ c (Proc.devRef .tc main_arg10); after_results)
    _ = W3 m ρ c (Proc.devRef .tc main_arg10) := W4_of_ne m ρ c main_arg10 (by decide)
    _ = m ((c.tc : Thread nD τ).loc main_arg10) := arg10_entry m ρ c

theorem arg12_entry (c : Dev nD) : W3 m ρ c (Proc.devRef .tc main_arg12) = m ((c.tc : Thread nD τ).loc main_arg12) :=
  calc W3 m ρ c (Proc.devRef .tc main_arg12)
    _ = W2 m ρ c (Proc.devRef .tc main_arg12) := (by show StableHlo.after hostOps0_2 (W2 m ρ c) (Proc.devRef .tc main_arg12) = W2 m ρ c (Proc.devRef .tc main_arg12); after_results)
    _ = W1 m ρ c (Proc.devRef .tc main_arg12) := (by show StableHlo.after hostOps0_1 (W1 m ρ c) (Proc.devRef .tc main_arg12) = W1 m ρ c (Proc.devRef .tc main_arg12); after_results)
    _ = W0 m ρ c (Proc.devRef .tc main_arg12) := (by show StableHlo.after hostOps0 (W0 m ρ c) (Proc.devRef .tc main_arg12) = W0 m ρ c (Proc.devRef .tc main_arg12); after_results)
    _ = m ((c.tc : Thread nD τ).loc main_arg12) := rfl

theorem arg12_at10 (c : Dev nD) : W10 m ρ c (Proc.devRef .tc main_arg12) = m ((c.tc : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := (by show StableHlo.after hostOps3 (W8 m ρ c) (Proc.devRef .tc main_arg12) = W8 m ρ c (Proc.devRef .tc main_arg12); after_results)
    _ = W7 m ρ c (Proc.devRef .tc main_arg12) := W8_of_ne m ρ c main_arg12 (by decide)
    _ = W6 m ρ c (Proc.devRef .tc main_arg12) := (by show StableHlo.after hostOps2 (W6 m ρ c) (Proc.devRef .tc main_arg12) = W6 m ρ c (Proc.devRef .tc main_arg12); after_results)
    _ = W5 m ρ c (Proc.devRef .tc main_arg12) := W6_of_ne m ρ c main_arg12 (by decide)
    _ = W4 m ρ c (Proc.devRef .tc main_arg12) := (by show StableHlo.after hostOps1 (W4 m ρ c) (Proc.devRef .tc main_arg12) = W4 m ρ c (Proc.devRef .tc main_arg12); after_results)
    _ = W3 m ρ c (Proc.devRef .tc main_arg12) := W4_of_ne m ρ c main_arg12 (by decide)
    _ = m ((c.tc : Thread nD τ).loc main_arg12) := arg12_entry m ρ c

theorem arg9_entry (c : Dev nD) : W3 m ρ c (Proc.devRef .tc main_arg9) = m ((c.tc : Thread nD τ).loc main_arg9) :=
  calc W3 m ρ c (Proc.devRef .tc main_arg9)
    _ = W2 m ρ c (Proc.devRef .tc main_arg9) := (by show StableHlo.after hostOps0_2 (W2 m ρ c) (Proc.devRef .tc main_arg9) = W2 m ρ c (Proc.devRef .tc main_arg9); after_results)
    _ = W1 m ρ c (Proc.devRef .tc main_arg9) := (by show StableHlo.after hostOps0_1 (W1 m ρ c) (Proc.devRef .tc main_arg9) = W1 m ρ c (Proc.devRef .tc main_arg9); after_results)
    _ = W0 m ρ c (Proc.devRef .tc main_arg9) := (by show StableHlo.after hostOps0 (W0 m ρ c) (Proc.devRef .tc main_arg9) = W0 m ρ c (Proc.devRef .tc main_arg9); after_results)
    _ = m ((c.tc : Thread nD τ).loc main_arg9) := rfl

theorem arg9_at11 (c : Dev nD) : W11 m ρ c (Proc.devRef .tc main_arg9) = m ((c.tc : Thread nD τ).loc main_arg9) :=
  calc W11 m ρ c (Proc.devRef .tc main_arg9)
    _ = W10 m ρ c (Proc.devRef .tc main_arg9) := (by show StableHlo.after hostOps4 (W10 m ρ c) (Proc.devRef .tc main_arg9) = W10 m ρ c (Proc.devRef .tc main_arg9); after_results)
    _ = W9 m ρ c (Proc.devRef .tc main_arg9) := W10_of_ne m ρ c main_arg9 (by decide)
    _ = W8 m ρ c (Proc.devRef .tc main_arg9) := (by show StableHlo.after hostOps3 (W8 m ρ c) (Proc.devRef .tc main_arg9) = W8 m ρ c (Proc.devRef .tc main_arg9); after_results)
    _ = W7 m ρ c (Proc.devRef .tc main_arg9) := W8_of_ne m ρ c main_arg9 (by decide)
    _ = W6 m ρ c (Proc.devRef .tc main_arg9) := (by show StableHlo.after hostOps2 (W6 m ρ c) (Proc.devRef .tc main_arg9) = W6 m ρ c (Proc.devRef .tc main_arg9); after_results)
    _ = W5 m ρ c (Proc.devRef .tc main_arg9) := W6_of_ne m ρ c main_arg9 (by decide)
    _ = W4 m ρ c (Proc.devRef .tc main_arg9) := (by show StableHlo.after hostOps1 (W4 m ρ c) (Proc.devRef .tc main_arg9) = W4 m ρ c (Proc.devRef .tc main_arg9); after_results)
    _ = W3 m ρ c (Proc.devRef .tc main_arg9) := W4_of_ne m ρ c main_arg9 (by decide)
    _ = m ((c.tc : Thread nD τ).loc main_arg9) := arg9_entry m ρ c

theorem arg11_entry (c : Dev nD) : W3 m ρ c (Proc.devRef .tc main_arg11) = m ((c.tc : Thread nD τ).loc main_arg11) :=
  calc W3 m ρ c (Proc.devRef .tc main_arg11)
    _ = W2 m ρ c (Proc.devRef .tc main_arg11) := (by show StableHlo.after hostOps0_2 (W2 m ρ c) (Proc.devRef .tc main_arg11) = W2 m ρ c (Proc.devRef .tc main_arg11); after_results)
    _ = W1 m ρ c (Proc.devRef .tc main_arg11) := (by show StableHlo.after hostOps0_1 (W1 m ρ c) (Proc.devRef .tc main_arg11) = W1 m ρ c (Proc.devRef .tc main_arg11); after_results)
    _ = W0 m ρ c (Proc.devRef .tc main_arg11) := (by show StableHlo.after hostOps0 (W0 m ρ c) (Proc.devRef .tc main_arg11) = W0 m ρ c (Proc.devRef .tc main_arg11); after_results)
    _ = m ((c.tc : Thread nD τ).loc main_arg11) := rfl

theorem arg11_at11 (c : Dev nD) : W11 m ρ c (Proc.devRef .tc main_arg11) = m ((c.tc : Thread nD τ).loc main_arg11) :=
  calc W11 m ρ c (Proc.devRef .tc main_arg11)
    _ = W10 m ρ c (Proc.devRef .tc main_arg11) := (by show StableHlo.after hostOps4 (W10 m ρ c) (Proc.devRef .tc main_arg11) = W10 m ρ c (Proc.devRef .tc main_arg11); after_results)
    _ = W9 m ρ c (Proc.devRef .tc main_arg11) := W10_of_ne m ρ c main_arg11 (by decide)
    _ = W8 m ρ c (Proc.devRef .tc main_arg11) := (by show StableHlo.after hostOps3 (W8 m ρ c) (Proc.devRef .tc main_arg11) = W8 m ρ c (Proc.devRef .tc main_arg11); after_results)
    _ = W7 m ρ c (Proc.devRef .tc main_arg11) := W8_of_ne m ρ c main_arg11 (by decide)
    _ = W6 m ρ c (Proc.devRef .tc main_arg11) := (by show StableHlo.after hostOps2 (W6 m ρ c) (Proc.devRef .tc main_arg11) = W6 m ρ c (Proc.devRef .tc main_arg11); after_results)
    _ = W5 m ρ c (Proc.devRef .tc main_arg11) := W6_of_ne m ρ c main_arg11 (by decide)
    _ = W4 m ρ c (Proc.devRef .tc main_arg11) := (by show StableHlo.after hostOps1 (W4 m ρ c) (Proc.devRef .tc main_arg11) = W4 m ρ c (Proc.devRef .tc main_arg11); after_results)
    _ = W3 m ρ c (Proc.devRef .tc main_arg11) := W4_of_ne m ρ c main_arg11 (by decide)
    _ = m ((c.tc : Thread nD τ).loc main_arg11) := arg11_entry m ρ c

/-! ## The edge values, as the first launch found them -/

theorem src_at4 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)
    _ = W3 m ρ c (Proc.devRef .tc main_v5) := rfl

theorem src_at6 (c : Dev nD) : W6 m ρ c (Proc.devRef .tc main_v5) = W3 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := (by show StableHlo.after hostOps1 (W4 m ρ c) (Proc.devRef .tc main_v5) = W4 m ρ c (Proc.devRef .tc main_v5); after_results)
    _ = W3 m ρ c (Proc.devRef .tc main_v5) := W4_of_ne m ρ c main_v5 (by decide)
    _ = W3 m ρ c (Proc.devRef .tc main_v5) := rfl

theorem src_at8 (c : Dev nD) : W8 m ρ c (Proc.devRef .tc main_v5) = W3 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := (by show StableHlo.after hostOps2 (W6 m ρ c) (Proc.devRef .tc main_v5) = W6 m ρ c (Proc.devRef .tc main_v5); after_results)
    _ = W5 m ρ c (Proc.devRef .tc main_v5) := W6_of_ne m ρ c main_v5 (by decide)
    _ = W4 m ρ c (Proc.devRef .tc main_v5) := (by show StableHlo.after hostOps1 (W4 m ρ c) (Proc.devRef .tc main_v5) = W4 m ρ c (Proc.devRef .tc main_v5); after_results)
    _ = W3 m ρ c (Proc.devRef .tc main_v5) := W4_of_ne m ρ c main_v5 (by decide)
    _ = W3 m ρ c (Proc.devRef .tc main_v5) := rfl

theorem dst_at4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
    _ = W3 m ρ c (Proc.devRef .tc main_v6) := rfl

theorem dst_at6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := (by show StableHlo.after hostOps1 (W4 m ρ c) (Proc.devRef .tc main_v6) = W4 m ρ c (Proc.devRef .tc main_v6); after_results)
    _ = W3 m ρ c (Proc.devRef .tc main_v6) := W4_of_ne m ρ c main_v6 (by decide)
    _ = W3 m ρ c (Proc.devRef .tc main_v6) := rfl

theorem dst_at8 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := (by show StableHlo.after hostOps2 (W6 m ρ c) (Proc.devRef .tc main_v6) = W6 m ρ c (Proc.devRef .tc main_v6); after_results)
    _ = W5 m ρ c (Proc.devRef .tc main_v6) := W6_of_ne m ρ c main_v6 (by decide)
    _ = W4 m ρ c (Proc.devRef .tc main_v6) := (by show StableHlo.after hostOps1 (W4 m ρ c) (Proc.devRef .tc main_v6) = W4 m ρ c (Proc.devRef .tc main_v6); after_results)
    _ = W3 m ρ c (Proc.devRef .tc main_v6) := W4_of_ne m ρ c main_v6 (by decide)
    _ = W3 m ρ c (Proc.devRef .tc main_v6) := rfl

theorem nrm_at4 (c : Dev nD) : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)
    _ = W3 m ρ c (Proc.devRef .tc main_v30) := rfl

theorem nrm_at6 (c : Dev nD) : W6 m ρ c (Proc.devRef .tc main_v30) = W3 m ρ c (Proc.devRef .tc main_v30) :=
  calc W6 m ρ c (Proc.devRef .tc main_v30)
    _ = W5 m ρ c (Proc.devRef .tc main_v30) := W6_of_ne m ρ c main_v30 (by decide)
    _ = W4 m ρ c (Proc.devRef .tc main_v30) := (by show StableHlo.after hostOps1 (W4 m ρ c) (Proc.devRef .tc main_v30) = W4 m ρ c (Proc.devRef .tc main_v30); after_results)
    _ = W3 m ρ c (Proc.devRef .tc main_v30) := W4_of_ne m ρ c main_v30 (by decide)
    _ = W3 m ρ c (Proc.devRef .tc main_v30) := rfl

theorem nrm_at8 (c : Dev nD) : W8 m ρ c (Proc.devRef .tc main_v30) = W3 m ρ c (Proc.devRef .tc main_v30) :=
  calc W8 m ρ c (Proc.devRef .tc main_v30)
    _ = W7 m ρ c (Proc.devRef .tc main_v30) := W8_of_ne m ρ c main_v30 (by decide)
    _ = W6 m ρ c (Proc.devRef .tc main_v30) := (by show StableHlo.after hostOps2 (W6 m ρ c) (Proc.devRef .tc main_v30) = W6 m ρ c (Proc.devRef .tc main_v30); after_results)
    _ = W5 m ρ c (Proc.devRef .tc main_v30) := W6_of_ne m ρ c main_v30 (by decide)
    _ = W4 m ρ c (Proc.devRef .tc main_v30) := (by show StableHlo.after hostOps1 (W4 m ρ c) (Proc.devRef .tc main_v30) = W4 m ρ c (Proc.devRef .tc main_v30); after_results)
    _ = W3 m ρ c (Proc.devRef .tc main_v30) := W4_of_ne m ρ c main_v30 (by decide)
    _ = W3 m ρ c (Proc.devRef .tc main_v30) := rfl

end Cert.KernelIdeal.Carried

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowProduct.lean ====
/-
  Rows times a weight matrix, `Σ_k X(r,k)·W(k,j)`, over the extended reals, as ONE function of the two whole arrays, and
  its two spellings. The host's plain `dot_general` IS that function. A row-tiled kernel multiplies a block of rows,
  both operands first rounded to bf16 (the identity on the extended reals), into a zero accumulator: entry `(p, j)` of
  the block's product is the function's entry at the block's row `p`, so a block that holds the rows `o + p` of `X` yields
  the rows `o + p` of the whole product. No finiteness is used anywhere: a sum of products is the same sum on both sides.
-/
import Idealize.ShloMosaic.PureOps.Ideal.Laws
import Idealize.ShloMosaic.Lib.ValueIdx
import proofs.«143302_j64991445123451_2_alg».proof.Proof.LibPlainDot

namespace Idealize.ShloMosaic.RowProduct

open Idealize.ShloMosaic.ValueIdx

variable {A B K M : Nat}

/-- The product of the rows of `X` with `W`: entry `(r, j)` is `Σ_k X(r,k)·W(k,j)`. -/
noncomputable def prod (X : FVec Ideal ⟨2, ![A, K]⟩ .f32) (W : FVec Ideal ⟨2, ![K, M]⟩ .f32) : FVec Ideal ⟨2, ![A, M]⟩ .f32 :=
  fun i => ∑ k : Fin K, X (ix2 ⟨(i 0).val, idx2_lt0 i⟩ k) * W (ix2 k ⟨(i 1).val, idx2_lt1 i⟩)

theorem prod_ix2 (X : FVec Ideal ⟨2, ![A, K]⟩ .f32) (W : FVec Ideal ⟨2, ![K, M]⟩ .f32) (r : Fin A) (j : Fin M) :
    prod X W (ix2 r j) = ∑ k : Fin K, X (ix2 r k) * W (ix2 k j) := rfl

/-- The host's plain `dot_general` is that product, as whole arrays. -/
theorem host_eq (prec : Option ContractPrecision) (sched : HostSchedule) (X : FVec Ideal ⟨2, ![A, K]⟩ .f32)
    (W : FVec Ideal ⟨2, ![K, M]⟩ .f32) : FloatOps.dotGeneral (DotDims.plain A K M) prec sched X W = prod X W := by
  funext i
  obtain ⟨r, j, rfl⟩ : ∃ (r : Fin A) (j : Fin M), i = ix2 r j := ⟨i 0, i 1, eq_ix2 i⟩
  exact PlainDot.dotGeneral_apply_ix2 prec sched X W r j

/-- A kernel body's product of a block of rows, both operands rounded to bf16, into a zero accumulator, at `(p, j)`. -/
theorem body_apply (prec : Option ContractPrecision) (x0 : FVec Ideal ⟨2, ![B, K]⟩ .f32) (x1 : FVec Ideal ⟨2, ![K, M]⟩ .f32)
    (h0 h1 : FTy.bf16.bits < FTy.f32.bits) (p : Fin B) (j : Fin M) :
    FloatOps.matmul (DotDims.plain B K M) prec (truncf .bf16 x0 h0) (truncf .bf16 x1 h1)
        (constant ⟨2, ![B, M]⟩ .f32 0x00000000#32) (ix2 p j)
      = ∑ k : Fin K, x0 (ix2 p k) * x1 (ix2 k j) :=
  PlainDot.matmul_apply_ix2 prec (truncf .bf16 x0 h0) (truncf .bf16 x1 h1) p j

/-- A block holding the rows `o + p` of `X`, multiplied by the whole `W`, yields the rows `o + p` of the product. -/
theorem block_rows (X : FVec Ideal ⟨2, ![A, K]⟩ .f32) (W : FVec Ideal ⟨2, ![K, M]⟩ .f32)
    (x0 : FVec Ideal ⟨2, ![B, K]⟩ .f32) (x1 : FVec Ideal ⟨2, ![K, M]⟩ .f32) (o : Nat) (p : Fin B) (j : Fin M)
    (hr : o + p.val < A) (h0 : ∀ k : Fin K, x0 (ix2 p k) = X (ix2 ⟨o + p.val, hr⟩ k))
    (h1 : ∀ k : Fin K, x1 (ix2 k j) = W (ix2 k j)) :
    (∑ k : Fin K, x0 (ix2 p k) * x1 (ix2 k j)) = prod X W (ix2 ⟨o + p.val, hr⟩ j) := by
  rw [prod_ix2]
  exact Finset.sum_congr rfl fun k _ => by rw [h0 k, h1 k]

end Idealize.ShloMosaic.RowProduct
-- ==== Proof.FirstProduct.lean ====
/-
  The first launch: the rows of the node features times the first weight matrix. The launch has ten grid points; point t
  fetches rows 10000·t … 10000·t + 9999 of the features (all 64 columns) and the whole 64×64 weight matrix, multiplies them
  (both rounded to bf16, which is the identity on the extended reals) into a zero accumulator, and writes the product back
  as rows 10000·t … of the output. Entry (p, j) of a block's product is Σ_k x(10000·t + p, k)·W(k, j): the block is the
  restriction of the whole product Σ_k X(r, k)·W(k, j) to its rows, and the ten blocks cover all 100000 rows. So after the
  launch the output array holds the whole product of the two arrays the launch was entered with, whatever those are.
-/
import proofs.«143302_j64991445123451_2_alg».proof.Proof.Gen.KernelIdeal.Frame
import proofs.«143302_j64991445123451_2_alg».proof.Proof.LibRowProduct
import Idealize.ShloMosaic.Lib.Pipeline.Value
import Idealize.ShloMosaic.Lib.ValueIdx

set_option maxRecDepth 16384

noncomputable section

namespace Cert.KernelIdeal.FirstProduct

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the buffers' contents when the launch is entered: any
variable (V : (c : Dev nD) → (b : Ref sig .tc) → Buf (Elt Ideal) ((c : Thread nD τ).loc b))

theorem origin : (![0, 0] : Fin 2 → Nat) = fun _ => 0 := funext fun a => by fin_cases a <;> rfl

/-- The printed contraction is the plain one: rows by columns. -/
theorem dims_plain : dot_S10000x64_S64x64_S10000x64_1_0_0_1_n_n = DotDims.plain 10000 64 64 := rfl

/-- The whole product of the features with the weights. -/
abbrev whole (X : FVec Ideal S100000x64 .f32) (W : FVec Ideal S64x64 .f32) : FVec Ideal S100000x64 .f32 :=
  RowProduct.prod (A := 100000) (K := 64) (M := 64) X W

/-- Entry (p, j) of what the body stores is the sum over the contracted column. -/
theorem stored_apply (x0 : Vec Ideal S10000x64 .f32) (x1 : Vec Ideal S64x64 .f32) (p : Fin 10000) (j : Fin 64) :
    k0_pay1 (F := Ideal) x0 x1 (ix2 p j) = ∑ k : Fin 64, x0 (ix2 p k) * x1 (ix2 k j) := by
  unfold k0_pay1
  rw [dims_plain]
  exact RowProduct.body_apply (B := 10000) (K := 64) (M := 64) none x0 x1 _ _ p j

/-- A block holding rows o … o + 9999 of X, with the whole W, stores those rows of the whole product. -/
theorem stored_rows (X : FVec Ideal S100000x64 .f32) (W : FVec Ideal S64x64 .f32)
    (x0 : Vec Ideal S10000x64 .f32) (x1 : Vec Ideal S64x64 .f32) (o : Nat) (ho : o + 10000 ≤ 100000)
    (h0 : ∀ (p : Fin 10000) (k : Fin 64), x0 (ix2 p k) = X (ix2 ⟨o + p.val, by have := p.isLt; omega⟩ k))
    (h1 : ∀ (k j : Fin 64), x1 (ix2 k j) = W (ix2 k j))
    (y : S10000x64.Idx) (i : S100000x64.Idx) (hi0 : (i 0).val = o + (y 0).val) (hi1 : (i 1).val = (y 1).val) :
    k0_pay1 (F := Ideal) x0 x1 y = whole X W i := by
  obtain ⟨p, j, rfl⟩ : ∃ (p : Fin 10000) (j : Fin 64), y = ix2 p j := ⟨y 0, y 1, eq_ix2 y⟩
  have hp := p.isLt
  have hi : i = ix2 (⟨o + p.val, by omega⟩ : Fin 100000) j := by
    funext a; apply Fin.ext
    match a with
    | ⟨0, _⟩ => exact hi0
    | ⟨1, _⟩ => exact hi1
  rw [hi, stored_apply]
  exact RowProduct.block_rows (A := 100000) (B := 10000) (K := 64) (M := 64) X W x0 x1 o p j (by omega) (fun k => h0 p k) (fun k => h1 k j)

/-- The printed index maps over the grid: point t's feature block and output block are block t of the rows, the weights'
    block is the only one. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the launch was entered with. -/
theorem flushed_eq (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  obtain ⟨e0, e1, e2, e3, e4, e5⟩ := index_facts t
  have ht : t.val < 10 := lt_of_lt_of_eq t.isLt N_0
  funext y
  show k0_pay1 (F := Ideal) (iblk0 V c 0 t) (iblk0 V c 1 t) y = whole (V c main_arg0) (V c main_arg3) (((cfg0.win 2).blk t).view.emb y)
  refine stored_rows (V c main_arg0) (V c main_arg3) (iblk0 V c 0 t) (iblk0 V c 1 t) (t.val * 10000) (by omega) ?_ ?_ y
    (((cfg0.win 2).blk t).view.emb y) ?_ ?_
  · intro p k
    show V c main_arg0 (((cfg0.win 0).blk t).view.emb (ix2 p k)) = V c main_arg0 (ix2 ⟨t.val * 10000 + p.val, _⟩ k)
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  · intro k j
    show V c main_arg3 (((cfg0.win 1).blk t).view.emb (ix2 k j)) = V c main_arg3 (ix2 k j)
    refine congrArg (V c main_arg3) ?_
    funext a; apply Fin.ext
    match a with
    | ⟨0, _⟩ => show win0_1.index t (0 : Fin 2) * 64 + 1 * k.val = k.val; omega
    | ⟨1, _⟩ => show win0_1.index t (1 : Fin 2) * 64 + 1 * j.val = j.val; omega
  · show win0_2.index t (0 : Fin 2) * 10000 + 1 * (y 0).val = t.val * 10000 + (y 0).val; omega
  · show win0_2.index t (1 : Fin 2) * 64 + 1 * (y 1).val = (y 1).val; omega

/-- An index of the output is in point t's block iff each coordinate is in the block's range. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row r of the output is in the block of point r / 10000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, lt_of_lt_of_eq (show (i 0).val / 10000 < 10 by omega) N_0.symm⟩
  obtain ⟨e0, e1, e2, e3, e4, e5⟩ := index_facts t
  have e4' : win0_2.index t (0 : Fin 2) = (i 0).val / 10000 := e4
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the launch the output array is the whole product of the two arrays the launch was entered with. -/
theorem final (c : Dev nD) : (dat0 V c).arrAt 2 cfg0.N = whole (V c main_arg0) (V c main_arg3) :=
  (dat0 V c).arrAt_eq_of_cover 2 (whole (V c main_arg0) (V c main_arg3)) (fun t _ => flushed_eq V c t) covered

end Cert.KernelIdeal.FirstProduct

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«143302_j64991445123451_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibBiasRelu.lean ====
/-
  A bias row added to every row of a matrix and the sum rectified, `max (Z(r,j) + b(j)) 0`, over the extended reals, as ONE
  function and in its two spellings. A kernel body holds the bias as a one-row matrix `[1, M]` and repeats it down the
  rows of its block, then takes the maximum with a splat zero. The host lifts the bias vector `[M]` to `[1, M]` and then to
  `[A, M]`, and takes the maximum with a rank-0 zero broadcast to `[A, M]`. The zero is the same f32 word on both sides and is
  never evaluated. Entry `(r, j)` reads row `r` of `Z` only, so a block of rows of `Z` yields the same rows of the result.
-/
import Idealize.ShloMosaic.PureOps.Ideal.Laws
import Idealize.ShloMosaic.Lib.ValueIdx
import Idealize.ShloMosaic.Lib.ValueLayout
import Idealize.ShloMosaic.Lib.Pipeline.Value
import proofs.«143302_j64991445123451_2_alg».proof.Proof.LibAffine

namespace Idealize.ShloMosaic.BiasRelu

open Idealize.ShloMosaic.ValueIdx

variable {A B M : Nat}

/-- `max (Z(r,j) + b(0,j)) 0`, the bias a one-row matrix, the zero kept as its f32 word. -/
noncomputable def biasRelu (Z : FVec Ideal ⟨2, ![A, M]⟩ .f32) (b : FVec Ideal ⟨2, ![1, M]⟩ .f32) : FVec Ideal ⟨2, ![A, M]⟩ .f32 :=
  fun i => max (Z i + b (ix2 (0 : Fin 1) ⟨(i 1).val, idx2_lt1 i⟩)) (Ideal.ofBits .f32 0x00000000#32)

theorem biasRelu_ix2 (Z : FVec Ideal ⟨2, ![A, M]⟩ .f32) (b : FVec Ideal ⟨2, ![1, M]⟩ .f32) (r : Fin A) (j : Fin M) :
    biasRelu Z b (ix2 r j) = max (Z (ix2 r j) + b (ix2 (0 : Fin 1) j)) (Ideal.ofBits .f32 0x00000000#32) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    maximumf (addf (shapeCast ⟨2, ![B, M]⟩ x0 h0) (broadcastTo ⟨2, ![B, M]⟩ (shapeCast ⟨2, ![1, M]⟩ x1 h1) hb))
        (broadcast ⟨2, ![B, M]⟩ (FloatOps.ofBits (F := Ideal) .f32 0x00000000#32)) (ix2 p j)
      = max (x0 (ix2 p j) + x1 (ix2 (0 : Fin 1) j)) (Ideal.ofBits .f32 0x00000000#32) := by
  rw [shapeCast_self, shapeCast_self]
  refine (maximumf_apply _ _ _).trans ?_
  refine congrArg₂ max ?_ rfl
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    max (x0 (ix2 p j) + x1 (ix2 (0 : Fin 1) j)) (Ideal.ofBits .f32 0x00000000#32) = biasRelu Z b (ix2 ⟨o + p.val, hr⟩ j) := by
  rw [biasRelu_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) (r : Fin A) (j : Fin M) :
    maximumf (addf Z (broadcastInDim ⟨2, ![A, M]⟩ ![0, 1] h2 (broadcastInDim ⟨2, ![1, M]⟩ ![1] h1 b)))
        (broadcastInDim ⟨2, ![A, M]⟩ ![] hz (constant (F := Ideal) ⟨0, ![]⟩ .f32 0x00000000#32)) (ix2 r j)
      = max (Z (ix2 r j) + b (ix1 j)) (Ideal.ofBits .f32 0x00000000#32) := by
  refine (maximumf_apply _ _ _).trans ?_
  refine congrArg₂ max ?_ ?_
  · refine (addf_apply _ _ _).trans ?_
    exact congrArg (Z (ix2 r j) + ·) (Affine.bias_rows_apply b h1 h2 r j)
  · exact broadcastInDim_apply _ hz _ (ix2 r j) (fun a => a.elim0) (fun a => a.elim0)

/-- The two spellings agree as whole arrays: the kernel's bias row is the host's bias vector recast to `[1, M]`. -/
theorem biasRelu_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) :
    biasRelu Z (shapeCast ⟨2, ![1, M]⟩ b hc)
      = maximumf (addf Z (broadcastInDim ⟨2, ![A, M]⟩ ![0, 1] h2 (broadcastInDim ⟨2, ![1, M]⟩ ![1] h1 b)))
          (broadcastInDim ⟨2, ![A, M]⟩ ![] hz (constant (F := Ideal) ⟨0, ![]⟩ .f32 0x00000000#32)) := by
  funext i
  obtain ⟨r, j, rfl⟩ : ∃ (r : Fin A) (j : Fin M), i = ix2 r j := ⟨i 0, i 1, eq_ix2 i⟩
  rw [host_apply, biasRelu_ix2, shapeCast_a_1a_apply]

end Idealize.ShloMosaic.BiasRelu
-- ==== Proof.Hidden1.lean ====
/-
  The first hidden launch: add the bias row to every row of the aggregated features, rectify, and multiply by the next weight
  matrix. The launch has ten grid points; point t fetches rows 10000·t … 10000·t + 9999 of the aggregated features, the one-row
  bias [1, 64] and the whole 64×64 weight matrix, forms max(z + b, 0) on its rows, rounds to bf16 (the identity on the extended
  reals), multiplies into a zero accumulator and writes the block back as the same rows of the output. Entry (p, j) of a block is
  Σ_k max(Z(10000·t + p, k) + b(0, k), 0)·W(k, j), which reads row 10000·t + p of Z only: the block is the restriction of the whole
  array Σ_k max(Z(r, k) + b(0, k), 0)·W(k, j) to its rows, and the ten blocks cover all 100000 rows. So after the launch the output
  array is that function of the three arrays the launch was entered with, whatever those are. The zero is one f32 word on both
  sides and is never evaluated.
-/
import proofs.«143302_j64991445123451_2_alg».proof.Proof.Gen.KernelIdeal.Frame
import proofs.«143302_j64991445123451_2_alg».proof.Proof.LibRowProduct
import proofs.«143302_j64991445123451_2_alg».proof.Proof.LibBiasRelu
import Idealize.ShloMosaic.Lib.Pipeline.Value
import Idealize.ShloMosaic.Lib.ValueIdx

set_option maxRecDepth 16384

noncomputable section

namespace Cert.KernelIdeal.Hidden1

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the buffers' contents when the launch is entered: any
variable (V : (c : Dev nD) → (b : Ref sig .tc) → Buf (Elt Ideal) ((c : Thread nD τ).loc b))

theorem origin : (![0, 0] : Fin 2 → Nat) = fun _ => 0 := funext fun a => by fin_cases a <;> rfl

/-- The printed contraction is the plain one: rows by columns. -/
theorem dims_plain : dot_S10000x64_S64x64_S10000x64_1_0_0_1_n_n = DotDims.plain 10000 64 64 := rfl

/-- The rectified, biased rows times the weights, as one function of the three whole arrays. -/
abbrev whole (Z : FVec Ideal S100000x64 .f32) (b : FVec Ideal S1x64 .f32) (W : FVec Ideal S64x64 .f32) : FVec Ideal S100000x64 .f32 :=
  RowProduct.prod (A := 100000) (K := 64) (M := 64) (BiasRelu.biasRelu (A := 100000) (M := 64) Z b) W

/-- Entry (p, j) of what the body stores. -/
theorem stored_apply (x0 : Vec Ideal S10000x64 .f32) (x1 : Vec Ideal S1x64 .f32) (x2 : Vec Ideal S64x64 .f32) (p : Fin 10000) (j : Fin 64) :
    k1_pay1 (F := Ideal) x0 x1 x2 (ix2 p j)
      = ∑ k : Fin 64, max (x0 (ix2 p k) + x1 (ix2 (0 : Fin 1) k)) (Ideal.ofBits .f32 0x00000000#32) * x2 (ix2 k j) := by
  unfold k1_pay1
  rw [dims_plain]
  refine (RowProduct.body_apply (B := 10000) (K := 64) (M := 64) none _ x2 _ _ p j).trans ?_
  exact Finset.sum_congr rfl fun k _ =>
    congrArg (· * x2 (ix2 k j)) (BiasRelu.body_apply (B := 10000) (M := 64) x0 x1 _ _ _ p k)

/-- A block holding rows o … o + 9999 of Z, with the same bias row and the whole W, stores those rows of the whole array. -/
theorem stored_rows (Z : FVec Ideal S100000x64 .f32) (b : FVec Ideal S1x64 .f32) (W : FVec Ideal S64x64 .f32)
    (x0 : Vec Ideal S10000x64 .f32) (x1 : Vec Ideal S1x64 .f32) (x2 : Vec Ideal S64x64 .f32) (o : Nat) (ho : o + 10000 ≤ 100000)
    (h0 : ∀ (p : Fin 10000) (k : Fin 64), x0 (ix2 p k) = Z (ix2 ⟨o + p.val, by have := p.isLt; omega⟩ k))
    (h1 : ∀ k : Fin 64, x1 (ix2 (0 : Fin 1) k) = b (ix2 (0 : Fin 1) k))
    (h2 : ∀ (k j : Fin 64), x2 (ix2 k j) = W (ix2 k j))
    (y : S10000x64.Idx) (i : S100000x64.Idx) (hi0 : (i 0).val = o + (y 0).val) (hi1 : (i 1).val = (y 1).val) :
    k1_pay1 (F := Ideal) x0 x1 x2 y = whole Z b W i := by
  obtain ⟨p, j, rfl⟩ : ∃ (p : Fin 10000) (j : Fin 64), y = ix2 p j := ⟨y 0, y 1, eq_ix2 y⟩
  have hp := p.isLt
  have hi : i = ix2 (⟨o + p.val, by omega⟩ : Fin 100000) j := by
    funext a; apply Fin.ext
    match a with
    | ⟨0, _⟩ => exact hi0
    | ⟨1, _⟩ => exact hi1
  rw [hi, stored_apply]
  show _ = ∑ k : Fin 64, BiasRelu.biasRelu (A := 100000) (M := 64) Z b (ix2 ⟨o + p.val, by omega⟩ k) * W (ix2 k j)
  exact Finset.sum_congr rfl fun k _ => by rw [BiasRelu.biasRelu_ix2, h0 p k, h1 k, h2 k j]

/-- The printed index maps over the grid: point t's feature block and output block are block t of the rows; the bias and the
    weights have one block each. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole array of the arrays the launch was entered with. -/
theorem flushed_eq (c : Dev nD) (t : Fin cfg1.N) :
    (dat1 V c).flushed 3 t = ((cfg1.win 3).blk t).view.read (Elt Ideal) (whole (V c main_v43) (V c main_v44) (V c main_arg5)) := by
  show (cfg1.win 3).cut (grid1.coords t) ((dat1 V c).after 3 t) = _
  rw [after1_3]
  unfold out1_3
  rw [View.canon_unit_zero origin]
  simp only [View.ld_unit_zero (S := S10000x64) origin, View.ld_unit_zero (S := S1x64) origin, View.ld_unit_zero (S := S64x64) origin]
  obtain ⟨e0, e1, e2, e3, e4, e5, e6, e7⟩ := index_facts t
  have ht : t.val < 10 := lt_of_lt_of_eq t.isLt N_1
  funext y
  show k1_pay1 (F := Ideal) (iblk1 V c 0 t) (iblk1 V c 1 t) (iblk1 V c 2 t) y
    = whole (V c main_v43) (V c main_v44) (V c main_arg5) (((cfg1.win 3).blk t).view.emb y)
  refine stored_rows (V c main_v43) (V c main_v44) (V c main_arg5) (iblk1 V c 0 t) (iblk1 V c 1 t) (iblk1 V c 2 t) (t.val * 10000) (by omega)
    ?_ ?_ ?_ y (((cfg1.win 3).blk t).view.emb y) ?_ ?_
  · intro p k
    show V c main_v43 (((cfg1.win 0).blk t).view.emb (ix2 p k)) = V c main_v43 (ix2 ⟨t.val * 10000 + p.val, _⟩ k)
    refine congrArg (V c main_v43) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  · intro k
    show V c main_v44 (((cfg1.win 1).blk t).view.emb (ix2 (0 : Fin 1) k)) = V c main_v44 (ix2 (0 : Fin 1) k)
    refine congrArg (V c main_v44) ?_
    funext a; apply Fin.ext
    match a with
    | ⟨0, _⟩ => show win1_1.index t (0 : Fin 2) * 1 + 1 * 0 = 0; omega
    | ⟨1, _⟩ => show win1_1.index t (1 : Fin 2) * 64 + 1 * k.val = k.val; omega
  · intro k j
    show V c main_arg5 (((cfg1.win 2).blk t).view.emb (ix2 k j)) = V c main_arg5 (ix2 k j)
    refine congrArg (V c main_arg5) ?_
    funext a; apply Fin.ext
    match a with
    | ⟨0, _⟩ => show win1_2.index t (0 : Fin 2) * 64 + 1 * k.val = k.val; omega
    | ⟨1, _⟩ => show win1_2.index t (1 : Fin 2) * 64 + 1 * j.val = j.val; omega
  · show win1_3.index t (0 : Fin 2) * 10000 + 1 * (y 0).val = t.val * 10000 + (y 0).val; omega
  · show win1_3.index t (1 : Fin 2) * 64 + 1 * (y 1).val = (y 1).val; omega

/-- An index of the output is in point t's block iff each coordinate is in the block's range. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Row r of the output is in the block of point r / 10000. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, lt_of_lt_of_eq (show (i 0).val / 10000 < 10 by omega) N_1.symm⟩
  obtain ⟨e0, e1, e2, e3, e4, e5, e6, e7⟩ := index_facts t
  have e6' : win1_3.index t (0 : Fin 2) = (i 0).val / 10000 := e6
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the launch the output array is the whole array of the three arrays the launch was entered with. -/
theorem final (c : Dev nD) : (dat1 V c).arrAt 3 cfg1.N = whole (V c main_v43) (V c main_v44) (V c main_arg5) :=
  (dat1 V c).arrAt_eq_of_cover 3 (whole (V c main_v43) (V c main_v44) (V c main_arg5)) (fun t _ => flushed_eq V c t) covered

end Cert.KernelIdeal.Hidden1

end
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«143302_j64991445123451_2_alg».proof.Proof.LibPlainDot
import proofs.«143302_j64991445123451_2_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.LibReluMlp.lean ====
/-
  Dense layers `rows · weights + bias row` followed by the rectifier `max(·, 0)`, and the logistic function `1 / (1 + e⁻ˣ)`
  after a last layer, each in two spellings that denote one function of the extended reals:

  * a kernel body's — a block of rows, rows and weights rounded to bf16 (the identity here), the matrix unit's product into a
    zero accumulator, the bias a `[1, M]` row repeated down the rows, the zero a scalar splat to the shape, the logistic
    function one operation;
  * the host's — `dot_general`, the bias `[M]` lifted to `[1, M]` and then to `[A, M]`, the zero and the one rank-0 arrays
    broadcast to the shape, the logistic function spelled `1 / (1 + exp(−x))`.

  Entry `(p, q)` of every layer reads row `p` of its input only, so a block of rows of the result is the result of that
  block of rows. Two stacks are named: two rectified layers (`phi2`), and two rectified layers, a third layer and the
  logistic function (`rho3`).
-/
import Idealize.ShloMosaic.PureOps.Ideal.Laws
import Idealize.ShloMosaic.Lib.ValueIdx
import Idealize.ShloMosaic.Lib.ValueLayout
import Idealize.ShloMosaic.Lib.Pipeline.Value
import proofs.«143302_j64991445123451_2_alg».proof.Proof.LibPlainDot
import proofs.«143302_j64991445123451_2_alg».proof.Proof.LibAffine
import proofs.«143302_j64991445123451_2_alg».proof.Proof.LibSoftplusLayers

noncomputable section

namespace Idealize.ShloMosaic.ReluMlp

open Idealize.ShloMosaic.ValueIdx Idealize.ShloMosaic.Affine Idealize.ShloMosaic.SoftplusLayers

/-! ## The rectifier and the logistic function on an array, in the two spellings -/

variable {s : Shape}

/-- `max(x, 0)`, the zero kept as the f32 word both spellings carry. -/
def relu (x : EReal) : EReal := max x zeroW

/-- The rectifier applied to every entry. -/
def reluV (x : FVec Ideal s .f32) : FVec Ideal s .f32 := fun i => relu (x i)

/-- A kernel body's spelling: the scalar zero splat to the shape. -/
def reluK (x : FVec Ideal s .f32) : FVec Ideal s .f32 :=
  maximumf x (broadcast s (Scalar.ofBits (F := Ideal) .f32 0x00000000#32))

theorem reluK_eq (x : FVec Ideal s .f32) : reluK x = reluV x := rfl

/-- The host's spelling: the rank-0 zero broadcast to the shape. -/
def reluH (h0 : (⟨0, ![]⟩ : Shape).BroadcastsInDim s ![]) (x : FVec Ideal s .f32) : FVec Ideal s .f32 :=
  maximumf x (broadcastInDim s ![] h0 (constant (F := Ideal) ⟨0, ![]⟩ .f32 0x00000000#32))

theorem reluH_eq (h0 : (⟨0, ![]⟩ : Shape).BroadcastsInDim s ![]) (x : FVec Ideal s .f32) : reluH h0 x = reluV x := rfl

/-- The f32 word of `1.0` is the real one. -/
theorem one_word : Ideal.ofBits .f32 0x3F800000#32 = 1 := by
  simp [Ideal.ofBits, Ideal.ieee, -EReal.coe_mul]; norm_num

/-- The logistic function applied to every entry. -/
def sigV (x : FVec Ideal s .f32) : FVec Ideal s .f32 := fun i => Ideal.logistic (x i)

/-- A kernel body's spelling is the one operation. -/
theorem sigK_eq (x : FVec Ideal s .f32) : logistic x = sigV x := rfl

/-- The host's spelling: `1 / (1 + exp(−x))` with the ones rank-0 arrays broadcast to the shape. -/
def sigH (h0 : (⟨0, ![]⟩ : Shape).BroadcastsInDim s ![]) (x : FVec Ideal s .f32) : FVec Ideal s .f32 :=
  Host.divf (broadcastInDim s ![] h0 (constant (F := Ideal) ⟨0, ![]⟩ .f32 0x3F800000#32))
    (addf (broadcastInDim s ![] h0 (constant (F := Ideal) ⟨0, ![]⟩ .f32 0x3F800000#32)) (Host.exp (Host.negf x)))

theorem sigH_eq (h0 : (⟨0, ![]⟩ : Shape).BroadcastsInDim s ![]) (x : FVec Ideal s .f32) : sigH h0 x = sigV x := by
  funext i
  show Ideal.div (Ideal.ofBits .f32 0x3F800000#32) (Ideal.ofBits .f32 0x3F800000#32 + Ideal.exp (-(x i))) = Ideal.logistic (x i)
  rw [one_word]
  rfl

/-! ## Rectified layers -/

variable {A A' K H H' M : Nat}

/-- `max(X·W + b, 0)`. -/
def layer {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  reluV (affine X W b)

/-- Entry `(p, q)` of a rectified layer reads row `p` of its input only. -/
theorem layer_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    layer Xb W b (ix2 p q) = layer X W b (ix2 r q) :=
  congrArg relu (affine_rows Xb X W b p r h q)

/-- Two rectified layers: `max(max(X·W1 + b1, 0)·W2 + b2, 0)`. -/
def phi2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  layer (layer X W1 b1) W2 b2

theorem phi2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    phi2 Xb W1 b1 W2 b2 (ix2 p q) = phi2 X W1 b1 W2 b2 (ix2 r q) :=
  layer_rows _ _ W2 b2 p r (fun k => layer_rows Xb X W1 b1 p r h k) q

/-- Two rectified layers, a third layer and the logistic function. -/
def rho3 {φ1 φ2 φ3 : FTy} (X : FVec Ideal ⟨2, ![A, K]⟩ .f32) (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) : FVec Ideal ⟨2, ![A, M]⟩ .f32 :=
  sigV (affine (phi2 X W1 b1 W2 b2) W3 b3)

theorem rho3_rows {φ1 φ2 φ3 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) (p : Fin A) (r : Fin A')
    (h : ∀ k : Fin K, Xb (ix2 p k) = X (ix2 r k)) (q : Fin M) :
    rho3 Xb W1 b1 W2 b2 W3 b3 (ix2 p q) = rho3 X W1 b1 W2 b2 W3 b3 (ix2 r q) :=
  congrArg Ideal.logistic
    (affine_rows _ _ W3 b3 p r (fun k => phi2_rows Xb X W1 b1 W2 b2 p r h k) q)

/-! ## The stacks as a kernel body spells them on a block of rows -/

def phi2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  reluK (denseK d2 ht hc2 hb2 (reluK (denseK d1 ht hc1 hb1 x0 x1 x2)) x3 x4)

theorem phi2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    phi2K d1 d2 ht hc1 hb1 hc2 hb2 x0 x1 x2 x3 x4 = phi2 x0 (truncf .bf16 x1 ht) x2 (truncf .bf16 x3 ht) x4 := by
  unfold phi2K phi2 layer
  rw [denseK_eq hd1, reluK_eq, denseK_eq hd2, reluK_eq]

/-- The second stack on a block of rows, the block first recast to its own shape. -/
def rho3K (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩) (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) : FVec Ideal ⟨2, ![A, M]⟩ .f32 :=
  logistic (denseK d3 ht hc3 hb3 (reluK (denseK d2 ht hc2 hb2
    (reluK (denseK d1 ht hc1 hb1 (shapeCast ⟨2, ![A, K]⟩ x0 hc0) x1 x2)) x3 x4)) x5 x6)

theorem rho3K_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) :
    rho3K d1 d2 d3 ht hc0 hc1 hb1 hc2 hb2 hc3 hb3 x0 x1 x2 x3 x4 x5 x6
      = rho3 x0 (truncf .bf16 x1 ht) x2 (truncf .bf16 x3 ht) x4 (truncf .bf16 x5 ht) x6 := by
  unfold rho3K rho3 phi2 layer
  rw [shapeCast_self, denseK_eq hd1, reluK_eq, denseK_eq hd2, reluK_eq, denseK_eq hd3, sigK_eq]

/-! ## The stacks as the host spells them on all the rows -/

def phi2H (d1 : DotDims ⟨2, ![A, K]⟩ ⟨2, ![K, H]⟩ ⟨2, ![A, H]⟩) (d2 : DotDims ⟨2, ![A, H]⟩ ⟨2, ![H, M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) : FVec Ideal ⟨2, ![A, M]⟩ .f32 :=
  reluH z2 (denseH d2 g3 g4 (reluH z1 (denseH d1 g1 g2 X W1 b1)) W2 b2)

theorem phi2H_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) :
    phi2H d1 d2 g1 g2 z1 g3 g4 z2 X W1 b1 W2 b2
      = phi2 X (truncf .bf16 W1 ht) (shapeCast ⟨2, ![1, H]⟩ b1 hc1) (truncf .bf16 W2 ht) (shapeCast ⟨2, ![1, M]⟩ b2 hc2) := by
  unfold phi2H phi2 layer
  rw [denseH_eq hd1 g1 g2 ht hc1, reluH_eq, denseH_eq hd2 g3 g4 ht hc2, reluH_eq]

def rho3H (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) : FVec Ideal ⟨2, ![A, M]⟩ .f32 :=
  sigH z3 (denseH d3 g5 g6 (reluH z2 (denseH d2 g3 g4 (reluH z1 (denseH d1 g1 g2 X W1 b1)) W2 b2)) W3 b3)

theorem rho3H_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![H']⟩ : Shape).ShapeCasts ⟨2, ![1, H']⟩)
    (hc3 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) :
    rho3H d1 d2 d3 g1 g2 z1 g3 g4 z2 g5 g6 z3 X W1 b1 W2 b2 W3 b3
      = rho3 X (truncf .bf16 W1 ht) (shapeCast ⟨2, ![1, H]⟩ b1 hc1) (truncf .bf16 W2 ht) (shapeCast ⟨2, ![1, H']⟩ b2 hc2)
          (truncf .bf16 W3 ht) (shapeCast ⟨2, ![1, M]⟩ b3 hc3) := by
  unfold rho3H rho3 phi2 layer
  rw [denseH_eq hd1 g1 g2 ht hc1, reluH_eq, denseH_eq hd2 g3 g4 ht hc2, reluH_eq, denseH_eq hd3 g5 g6 ht hc3, sigH_eq]

end Idealize.ShloMosaic.ReluMlp

end
-- ==== Proof.LibLayerForms.lean ====
/-
  Three forms of a row-wise layer, each as the function a row-tiled kernel leaves in its output array and as the host's own
  operations on whole arrays, equal over the extended reals for any extents, with no finiteness:

  * a hidden layer with the bias and the rectifier in FRONT of the product, Σ_k max(Z(r,k) + b(k), 0)·W(k,j): the kernel side is
    "rows times weights" of "bias row added and rectified" with the bias vector recast to a one-row matrix; the host side is
    dot_general of max(Z + lifted b, lifted 0) with W;
  * the rectified, biased rows alone (no product) are the library's own statement and are not repeated here;
  * a two-layer head dense → rectifier → dense, Σ_h max(Σ_k P(r,k)·W1(k,h) + b1(h), 0)·W2(h,j) + b2(j): the kernel side with weights
    rounded to bf16 (the identity here) and biases recast to rows, the host side as dot_general + twice-lifted bias, max with a
    lifted zero, dot_general + twice-lifted bias.
-/
import Idealize.ShloMosaic.PureOps.Ideal.Laws
import Idealize.ShloMosaic.Lib.ValueIdx
import Idealize.ShloMosaic.Lib.ValueLayout
import Idealize.ShloMosaic.Lib.Pipeline.Value
import proofs.«143302_j64991445123451_2_alg».proof.Proof.LibRowProduct
import proofs.«143302_j64991445123451_2_alg».proof.Proof.LibBiasRelu
import proofs.«143302_j64991445123451_2_alg».proof.Proof.LibSoftplusLayers
import proofs.«143302_j64991445123451_2_alg».proof.Proof.LibReluMlp

namespace Idealize.ShloMosaic.LayerForms

open Idealize.ShloMosaic.ValueIdx

variable {A K H M : Nat}

/-- Bias and rectifier in front of the product: the kernel's whole-array function is the host's
    dot_general of max(Z + lifted b, lifted 0) with W. -/
theorem biasRelu_prod_eq_host (Z : FVec Ideal ⟨2, ![A, K]⟩ .f32) (b : FVec Ideal ⟨1, ![K]⟩ .f32) (W : FVec Ideal ⟨2, ![K, M]⟩ .f32)
    (hc : (⟨1, ![K]⟩ : Shape).ShapeCasts ⟨2, ![1, K]⟩)
    (h1 : (⟨1, ![K]⟩ : Shape).BroadcastsInDim ⟨2, ![1, K]⟩ ![1])
    (h2 : (⟨2, ![1, K]⟩ : Shape).BroadcastsInDim ⟨2, ![A, K]⟩ ![0, 1])
    (hz : (⟨0, ![]⟩ : Shape).BroadcastsInDim ⟨2, ![A, K]⟩ ![]) :
    RowProduct.prod (BiasRelu.biasRelu Z (shapeCast ⟨2, ![1, K]⟩ b hc)) W
      = Host.dotGeneral (DotDims.plain A K M) none
          (maximumf (addf Z (broadcastInDim ⟨2, ![A, K]⟩ ![0, 1] h2 (broadcastInDim ⟨2, ![1, K]⟩ ![1] h1 b)))
            (broadcastInDim ⟨2, ![A, K]⟩ ![] hz (constant (F := Ideal) ⟨0, ![]⟩ .f32 0x00000000#32))) W := by
  rw [BiasRelu.biasRelu_eq_host Z b hc h1 h2 hz]
  exact (RowProduct.host_eq none .single _ W).symm

/-- Dense, rectifier, dense: the kernel's whole-array function is the host's two dense layers with the rectifier between. -/
theorem head_eq_host (P : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1]) :
    Affine.affine (ReluMlp.reluV (Affine.affine P (truncf .bf16 W1 ht) (shapeCast ⟨2, ![1, H]⟩ b1 hc1))) (truncf .bf16 W2 ht)
        (shapeCast ⟨2, ![1, M]⟩ b2 hc2)
      = SoftplusLayers.denseH (DotDims.plain A H M) g3 g4
          (ReluMlp.reluH z1 (SoftplusLayers.denseH (DotDims.plain A K H) g1 g2 P W1 b1)) W2 b2 := by
  rw [SoftplusLayers.denseH_eq rfl g1 g2 ht hc1, ReluMlp.reluH_eq, SoftplusLayers.denseH_eq rfl g3 g4 ht hc2]

end Idealize.ShloMosaic.LayerForms
-- ==== Proof.Layer1.lean ====
/-
  The first layer, from the first launch to the second launch's result. Read as functions of the arguments:
    after the first launch the product buffer holds X·W1 — the ten row blocks are the whole product, which is the reference's one
      dot_general;
    the stretch after it gathers the product's rows along the source list, scales each by the edge's normalisation, and
      scatter-adds them along the destination list — the same host operations, on the same three edge values, that the
      reference applies to its own product — and recasts the bias vector b1 to a one-row matrix;
    the second launch then leaves Σ_k max(A1(r,k) + b1(k), 0)·W2(k,j), which is the reference's dot_general of
      max(A1 + lifted b1, lifted 0) with W2.
  So each buffer equals the reference's own stage of the same arguments. The gather and the scatter are never opened.
-/
import proofs.«143302_j64991445123451_2_alg».proof.Proof.Edges
import proofs.«143302_j64991445123451_2_alg».proof.Proof.Carried
import proofs.«143302_j64991445123451_2_alg».proof.Proof.FirstProduct
import proofs.«143302_j64991445123451_2_alg».proof.Proof.Hidden1
import proofs.«143302_j64991445123451_2_alg».proof.Proof.LibLayerForms

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.StableHlo
open Cert.ReferenceIdeal.ReadP (val_main_v31 val_main_v43 val_main_v48)
open Cert.KernelIdeal.Edges (arg0 arg1 arg3 arg4 arg5)

variable (m : (ℓ : Loc nD τ sig) → Buf (Elt Ideal) ℓ) (ρ : Dev nD → PrngReg)

/-- The reference's first dot_general is the whole product of the rows with the weights. -/
theorem ref_product (X : FVec Ideal S100000x64 .f32) (W : FVec Ideal S64x64 .f32) :
    val_main_v31 (F := Ideal) X W = FirstProduct.whole X W := by
  unfold val_main_v31
  exact RowProduct.host_eq (A := 100000) (K := 64) (M := 64) none .single X W

/-- After the first launch: the product buffer holds the reference's product of the features with W1. -/
theorem product_exit (c : Dev nD) :
    W4 m ρ c (Proc.devRef .tc main_v31) = val_main_v31 (F := Ideal) (arg0 m c) (arg3 m c) := by
  refine (W4_arr m ρ c 2).trans ?_
  refine (FirstProduct.final (V3 m ρ) c).trans ?_
  show FirstProduct.whole (W3 m ρ c (Proc.devRef .tc main_arg0)) (W3 m ρ c (Proc.devRef .tc main_arg3)) = _
  rw [Carried.arg0_entry m ρ c, Carried.arg3_entry m ρ c]
  exact (ref_product _ _).symm

/-- When the second launch is entered: the aggregated features are the reference's. -/
theorem aggregate_entry (c : Dev nD) :
    W5 m ρ c (Proc.devRef .tc main_v43) = val_main_v43 (F := Ideal) (arg0 m c) (arg1 m c) (arg3 m c) := by
  show StableHlo.after hostOps1 (W4 m ρ c) (Proc.devRef .tc main_v43) = _
  after_results_simp
  rw [product_exit m ρ c, Carried.src_at4 m ρ c, Carried.dst_at4 m ρ c, Carried.nrm_at4 m ρ c,
    Edges.src_entry m ρ c, Edges.dst_entry m ρ c, Edges.nrm_entry m ρ c]
  rfl

/-- When the second launch is entered: its bias row is the bias vector b1 recast to one row. -/
theorem bias_entry (c : Dev nD) :
    W5 m ρ c (Proc.devRef .tc main_v44) = shapeCast S1x64 (arg4 m c) shapeCasts_S64_S1x64 := by
  show StableHlo.after hostOps1 (W4 m ρ c) (Proc.devRef .tc main_v44) = _
  after_results
  rw [Carried.arg4_at4 m ρ c]
  rfl

/-- After the second launch: its result buffer holds the reference's second product. -/
theorem hidden_exit (c : Dev nD) :
    W6 m ρ c (Proc.devRef .tc main_v45)
      = val_main_v48 (F := Ideal) (arg0 m c) (arg1 m c) (arg3 m c) (arg4 m c) (arg5 m c) := by
  refine (W6_arr m ρ c 3).trans ?_
  refine (Hidden1.final (V5 m ρ) c).trans ?_
  show Hidden1.whole (W5 m ρ c (Proc.devRef .tc main_v43)) (W5 m ρ c (Proc.devRef .tc main_v44))
    (W5 m ρ c (Proc.devRef .tc main_arg5)) = _
  rw [aggregate_entry m ρ c, bias_entry m ρ c, Carried.arg5_at5 m ρ c]
  exact LayerForms.biasRelu_prod_eq_host (A := 100000) (K := 64) (M := 64)
    (val_main_v43 (F := Ideal) (arg0 m c) (arg1 m c) (arg3 m c)) (arg4 m c) (arg5 m c) shapeCasts_S64_S1x64
    Cert.ReferenceIdeal.Facts₀.bcast_S64_S1x64_1 Cert.ReferenceIdeal.Facts₀.bcast_S1x64_S100000x64_0_1 Cert.ReferenceIdeal.Facts₀.bcast_S_S100000x64

end Cert.KernelIdeal.Layer1

end
-- ==== Proof.Hidden2.lean ====
/-
  The second hidden launch: add the bias row to every row of the aggregated features, rectify, and multiply by the next weight
  matrix. The launch has ten grid points; point t fetches rows 10000·t … 10000·t + 9999 of the aggregated features, the one-row
  bias [1, 64] and the whole 64×64 weight matrix, forms max(z + b, 0) on its rows, rounds to bf16 (the identity on the extended
  reals), multiplies into a zero accumulator and writes the block back as the same rows of the output. Entry (p, j) of a block is
  Σ_k max(Z(10000·t + p, k) + b(0, k), 0)·W(k, j), which reads row 10000·t + p of Z only: the block is the restriction of the whole
  array Σ_k max(Z(r, k) + b(0, k), 0)·W(k, j) to its rows, and the ten blocks cover all 100000 rows. So after the launch the output
  array is that function of the three arrays the launch was entered with, whatever those are. The zero is one f32 word on both
  sides and is never evaluated.
-/
import proofs.«143302_j64991445123451_2_alg».proof.Proof.Gen.KernelIdeal.Frame
import proofs.«143302_j64991445123451_2_alg».proof.Proof.LibRowProduct
import proofs.«143302_j64991445123451_2_alg».proof.Proof.LibBiasRelu
import Idealize.ShloMosaic.Lib.Pipeline.Value
import Idealize.ShloMosaic.Lib.ValueIdx

set_option maxRecDepth 16384

noncomputable section

namespace Cert.KernelIdeal.Hidden2

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the buffers' contents when the launch is entered: any
variable (V : (c : Dev nD) → (b : Ref sig .tc) → Buf (Elt Ideal) ((c : Thread nD τ).loc b))

theorem origin : (![0, 0] : Fin 2 → Nat) = fun _ => 0 := funext fun a => by fin_cases a <;> rfl

/-- The printed contraction is the plain one: rows by columns. -/
theorem dims_plain : dot_S10000x64_S64x64_S10000x64_1_0_0_1_n_n = DotDims.plain 10000 64 64 := rfl

/-- The rectified, biased rows times the weights, as one function of the three whole arrays. -/
abbrev whole (Z : FVec Ideal S100000x64 .f32) (b : FVec Ideal S1x64 .f32) (W : FVec Ideal S64x64 .f32) : FVec Ideal S100000x64 .f32 :=
  RowProduct.prod (A := 100000) (K := 64) (M := 64) (BiasRelu.biasRelu (A := 100000) (M := 64) Z b) W

/-- Entry (p, j) of what the body stores. -/
theorem stored_apply (x0 : Vec Ideal S10000x64 .f32) (x1 : Vec Ideal S1x64 .f32) (x2 : Vec Ideal S64x64 .f32) (p : Fin 10000) (j : Fin 64) :
    k2_pay1 (F := Ideal) x0 x1 x2 (ix2 p j)
      = ∑ k : Fin 64, max (x0 (ix2 p k) + x1 (ix2 (0 : Fin 1) k)) (Ideal.ofBits .f32 0x00000000#32) * x2 (ix2 k j) := by
  unfold k2_pay1
  rw [dims_plain]
  refine (RowProduct.body_apply (B := 10000) (K := 64) (M := 64) none _ x2 _ _ p j).trans ?_
  exact Finset.sum_congr rfl fun k _ =>
    congrArg (· * x2 (ix2 k j)) (BiasRelu.body_apply (B := 10000) (M := 64) x0 x1 _ _ _ p k)

/-- A block holding rows o … o + 9999 of Z, with the same bias row and the whole W, stores those rows of the whole array. -/
theorem stored_rows (Z : FVec Ideal S100000x64 .f32) (b : FVec Ideal S1x64 .f32) (W : FVec Ideal S64x64 .f32)
    (x0 : Vec Ideal S10000x64 .f32) (x1 : Vec Ideal S1x64 .f32) (x2 : Vec Ideal S64x64 .f32) (o : Nat) (ho : o + 10000 ≤ 100000)
    (h0 : ∀ (p : Fin 10000) (k : Fin 64), x0 (ix2 p k) = Z (ix2 ⟨o + p.val, by have := p.isLt; omega⟩ k))
    (h1 : ∀ k : Fin 64, x1 (ix2 (0 : Fin 1) k) = b (ix2 (0 : Fin 1) k))
    (h2 : ∀ (k j : Fin 64), x2 (ix2 k j) = W (ix2 k j))
    (y : S10000x64.Idx) (i : S100000x64.Idx) (hi0 : (i 0).val = o + (y 0).val) (hi1 : (i 1).val = (y 1).val) :
    k2_pay1 (F := Ideal) x0 x1 x2 y = whole Z b W i := by
  obtain ⟨p, j, rfl⟩ : ∃ (p : Fin 10000) (j : Fin 64), y = ix2 p j := ⟨y 0, y 1, eq_ix2 y⟩
  have hp := p.isLt
  have hi : i = ix2 (⟨o + p.val, by omega⟩ : Fin 100000) j := by
    funext a; apply Fin.ext
    match a with
    | ⟨0, _⟩ => exact hi0
    | ⟨1, _⟩ => exact hi1
  rw [hi, stored_apply]
  show _ = ∑ k : Fin 64, BiasRelu.biasRelu (A := 100000) (M := 64) Z b (ix2 ⟨o + p.val, by omega⟩ k) * W (ix2 k j)
  exact Finset.sum_congr rfl fun k _ => by rw [BiasRelu.biasRelu_ix2, h0 p k, h1 k, h2 k j]

/-- The printed index maps over the grid: point t's feature block and output block are block t of the rows; the bias and the
    weights have one block each. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole array of the arrays the launch was entered with. -/
theorem flushed_eq (c : Dev nD) (t : Fin cfg2.N) :
    (dat2 V c).flushed 3 t = ((cfg2.win 3).blk t).view.read (Elt Ideal) (whole (V c main_v57) (V c main_v58) (V c main_arg7)) := by
  show (cfg2.win 3).cut (grid2.coords t) ((dat2 V c).after 3 t) = _
  rw [after2_3]
  unfold out2_3
  rw [View.canon_unit_zero origin]
  simp only [View.ld_unit_zero (S := S10000x64) origin, View.ld_unit_zero (S := S1x64) origin, View.ld_unit_zero (S := S64x64) origin]
  obtain ⟨e0, e1, e2, e3, e4, e5, e6, e7⟩ := index_facts t
  have ht : t.val < 10 := lt_of_lt_of_eq t.isLt N_2
  funext y
  show k2_pay1 (F := Ideal) (iblk2 V c 0 t) (iblk2 V c 1 t) (iblk2 V c 2 t) y
    = whole (V c main_v57) (V c main_v58) (V c main_arg7) (((cfg2.win 3).blk t).view.emb y)
  refine stored_rows (V c main_v57) (V c main_v58) (V c main_arg7) (iblk2 V c 0 t) (iblk2 V c 1 t) (iblk2 V c 2 t) (t.val * 10000) (by omega)
    ?_ ?_ ?_ y (((cfg2.win 3).blk t).view.emb y) ?_ ?_
  · intro p k
    show V c main_v57 (((cfg2.win 0).blk t).view.emb (ix2 p k)) = V c main_v57 (ix2 ⟨t.val * 10000 + p.val, _⟩ k)
    refine congrArg (V c main_v57) ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  · intro k
    show V c main_v58 (((cfg2.win 1).blk t).view.emb (ix2 (0 : Fin 1) k)) = V c main_v58 (ix2 (0 : Fin 1) k)
    refine congrArg (V c main_v58) ?_
    funext a; apply Fin.ext
    match a with
    | ⟨0, _⟩ => show win2_1.index t (0 : Fin 2) * 1 + 1 * 0 = 0; omega
    | ⟨1, _⟩ => show win2_1.index t (1 : Fin 2) * 64 + 1 * k.val = k.val; omega
  · intro k j
    show V c main_arg7 (((cfg2.win 2).blk t).view.emb (ix2 k j)) = V c main_arg7 (ix2 k j)
    refine congrArg (V c main_arg7) ?_
    funext a; apply Fin.ext
    match a with
    | ⟨0, _⟩ => show win2_2.index t (0 : Fin 2) * 64 + 1 * k.val = k.val; omega
    | ⟨1, _⟩ => show win2_2.index t (1 : Fin 2) * 64 + 1 * j.val = j.val; omega
  · show win2_3.index t (0 : Fin 2) * 10000 + 1 * (y 0).val = t.val * 10000 + (y 0).val; omega
  · show win2_3.index t (1 : Fin 2) * 64 + 1 * (y 1).val = (y 1).val; omega

/-- An index of the output is in point t's block iff each coordinate is in the block's range. -/
theorem mem_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v59).slice (win2_3.rect t)).set ↔ _
  rw [View.set_slice_whole, Rect.mem_set_unit]
  exact Iff.rfl

/-- Row r of the output is in the block of point r / 10000. -/
theorem covered (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 10000, lt_of_lt_of_eq (show (i 0).val / 10000 < 10 by omega) N_2.symm⟩
  obtain ⟨e0, e1, e2, e3, e4, e5, e6, e7⟩ := index_facts t
  have e6' : win2_3.index t (0 : Fin 2) = (i 0).val / 10000 := e6
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- After the launch the output array is the whole array of the three arrays the launch was entered with. -/
theorem final (c : Dev nD) : (dat2 V c).arrAt 3 cfg2.N = whole (V c main_v57) (V c main_v58) (V c main_arg7) :=
  (dat2 V c).arrAt_eq_of_cover 3 (whole (V c main_v57) (V c main_v58) (V c main_arg7)) (fun t _ => flushed_eq V c t) covered

end Cert.KernelIdeal.Hidden2

end
-- ==== Proof.Layer2.lean ====
/-
  The second layer, from the second launch's result to the third launch's result. The stretch between them gathers the rows of
  the second product along the source list, scales by the normalisation, scatter-adds along the destination list — the
  reference's own operations on its own second product — and recasts the bias vector b2 to one row; the third launch leaves
  Σ_k max(A2(r,k) + b2(k), 0)·W3(k,j), the reference's dot_general of max(A2 + lifted b2, lifted 0) with W3. Each buffer equals
  the reference's stage of the same arguments.
-/
import proofs.«143302_j64991445123451_2_alg».proof.Proof.Layer1
import proofs.«143302_j64991445123451_2_alg».proof.Proof.Hidden2

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.StableHlo
open Cert.ReferenceIdeal.ReadP (val_main_v60 val_main_v65)
open Cert.KernelIdeal.Edges (arg0 arg1 arg3 arg4 arg5 arg6 arg7)

variable (m : (ℓ : Loc nD τ sig) → Buf (Elt Ideal) ℓ) (ρ : Dev nD → PrngReg)

/-- When the third launch is entered: the aggregated features are the reference's. -/
theorem aggregate_entry (c : Dev nD) :
    W7 m ρ c (Proc.devRef .tc main_v57) = val_main_v60 (F := Ideal) (arg0 m c) (arg1 m c) (arg3 m c) (arg4 m c) (arg5 m c) := by
  show StableHlo.after hostOps2 (W6 m ρ c) (Proc.devRef .tc main_v57) = _
  after_results_simp
  rw [Layer1.hidden_exit m ρ c, Carried.src_at6 m ρ c, Carried.dst_at6 m ρ c, Carried.nrm_at6 m ρ c,
    Edges.src_entry m ρ c, Edges.dst_entry m ρ c, Edges.nrm_entry m ρ c]
  rfl

/-- When the third launch is entered: its bias row is the bias vector b2 recast to one row. -/
theorem bias_entry (c : Dev nD) :
    W7 m ρ c (Proc.devRef .tc main_v58) = shapeCast S1x64 (arg6 m c) shapeCasts_S64_S1x64 := by
  show StableHlo.after hostOps2 (W6 m ρ c) (Proc.devRef .tc main_v58) = _
  after_results
  rw [Carried.arg6_at6 m ρ c]
  rfl

/-- After the third launch: its result buffer holds the reference's third product. -/
theorem hidden_exit (c : Dev nD) :
    W8 m ρ c (Proc.devRef .tc main_v59) = val_main_v65 (F := Ideal) (arg0 m c) (arg1 m c) (arg3 m c) (arg4 m c) (arg5 m c) (arg6 m c) (arg7 m c) := by
  refine (W8_arr m ρ c 3).trans ?_
  refine (Hidden2.final (V7 m ρ) c).trans ?_
  show Hidden2.whole (W7 m ρ c (Proc.devRef .tc main_v57)) (W7 m ρ c (Proc.devRef .tc main_v58))
    (W7 m ρ c (Proc.devRef .tc main_arg7)) = _
  rw [aggregate_entry m ρ c, bias_entry m ρ c, Carried.arg7_at7 m ρ c]
  exact LayerForms.biasRelu_prod_eq_host (A := 100000) (K := 64) (M := 64)
    (val_main_v60 (F := Ideal) (arg0 m c) (arg1 m c) (arg3 m c) (arg4 m c) (arg5 m c)) (arg6 m c) (arg7 m c) shapeCasts_S64_S1x64
    Cert.ReferenceIdeal.Facts₀.bcast_S64_S1x64_1 Cert.ReferenceIdeal.Facts₀.bcast_S1x64_S100000x64_0_1 Cert.ReferenceIdeal.Facts₀.bcast_S_S100000x64

end Cert.KernelIdeal.Layer2

end
-- ==== Proof.LastRectifier.lean ====
/-
  The last graph launch: add the bias row to every row of the aggregated features and rectify; no product follows. Ten grid
  points; point t fetches rows 10000·t … 10000·t + 9999 of the aggregated features and the one-row bias [1, 64], stores
  max(z + b, 0) on its rows and writes the block back as the same rows of the output. Entry (p, j) of a block is
  max(Z(10000·t + p, j) + b(0, j), 0): the block is the restriction of the whole array max(Z(r, j) + b(0, j), 0) to its rows, and
  the ten blocks cover all 100000 rows. So after the launch the output array is that function of the two arrays the launch was
  entered with. The zero is one f32 word on both sides and is never evaluated.
-/
import proofs.«143302_j64991445123451_2_alg».proof.Proof.Gen.KernelIdeal.Frame
import proofs.«143302_j64991445123451_2_alg».proof.Proof.LibBiasRelu
import Idealize.ShloMosaic.Lib.Pipeline.Value
import Idealize.ShloMosaic.Lib.ValueIdx

set_option maxRecDepth 16384

noncomputable section

namespace Cert.KernelIdeal.LastRectifier

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the buffers' contents when the launch is entered: any
variable (V : (c : Dev nD) → (b : Ref sig .tc) → Buf (Elt Ideal) ((c : Thread nD τ).loc b))

theorem origin : (![0, 0] : Fin 2 → Nat) = fun _ => 0 := funext fun a => by fin_cases a <;> rfl

/-- The rectified, biased rows, as one function of the two whole arrays. -/
abbrev whole (Z : FVec Ideal S100000x64 .f32) (b : FVec Ideal S1x64 .f32) : FVec Ideal S100000x64 .f32 :=
  BiasRelu.biasRelu (A := 100000) (M := 64) Z b

/-- Entry (p, j) of what the body stores. -/
theorem stored_apply (x0 : Vec Ideal S10000x64 .f32) (x1 : Vec Ideal S1x64 .f32) (p : Fin 10000) (j : Fin 64) :
    k3_pay1 (F := Ideal) x0 x1 (ix2 p j) = max (x0 (ix2 p j) + x1 (ix2 (0 : Fin 1) j)) (Ideal.ofBits .f32 0x00000000#32) := by
  unfold k3_pay1
  exact BiasRelu.body_apply (B := 10000) (M := 64) x0 x1 _ _ _ p j

/-- A block holding rows o … o + 9999 of Z, with the same bias row, stores those rows of the whole array. -/
theorem stored_rows (Z : FVec Ideal S100000x64 .f32) (b : FVec Ideal S1x64 .f32)
    (x0 : Vec Ideal S10000x64 .f32) (x1 : Vec Ideal S1x64 .f32) (o : Nat) (ho : o + 10000 ≤ 100000)
    (h0 : ∀ (p : Fin 10000) (k : Fin 64), x0 (ix2 p k) = Z (ix2 ⟨o + p.val, by have := p.isLt; omega⟩ k))
    (h1 : ∀ k : Fin 64, x1 (ix2 (0 : Fin 1) k) = b (ix2 (0 : Fin 1) k))
    (y : S10000x64.Idx) (i : S100000x64.Idx) (hi0 : (i 0).val = o + (y 0).val) (hi1 : (i 1).val = (y 1).val) :
    k3_pay1 (F := Ideal) x0 x1 y = whole Z b i := by
  obtain ⟨p, j, rfl⟩ : ∃ (p : Fin 10000) (j : Fin 64), y = ix2 p j := ⟨y 0, y 1, eq_ix2 y⟩
  have hp := p.isLt
  have hi : i = ix2 (⟨o + p.val, by omega⟩ : Fin 100000) j := by
    funext a; apply Fin.ext
    match a with
    | ⟨0, _⟩ => exact hi0
    | ⟨1, _⟩ => exact hi1
  rw [hi, stored_apply]
  exact BiasRelu.block_rows (A := 100000) (B := 10000) (M := 64) Z b x0 x1 o p j (by omega) (h0 p j) (h1 j)

/-- The printed index maps over the grid: point t's feature block and output block are block t of the rows; the bias has one
    block. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole array of the arrays the launch was entered with. -/
theorem flushed_eq (c : Dev nD) (t : Fin cfg3.N) :
    (dat3 V c).flushed 2 t = ((cfg3.win 2).blk t).view.read (Elt Ideal) (whole (V c main_v71) (V c main_v72)) := by
  show (cfg3.win 2).cut (grid3.coords t) ((dat3 V c).after 2 t) = _
  rw [after3_2]
  unfold out3_2
  rw [View.canon_unit_zero origin]
  simp only [View.ld_unit_zero (S := S10000x64) origin, View.ld_unit_zero (S := S1x64) origin]
  obtain ⟨e0, e1, e2, e3, e4, e5⟩ := index_facts t
  have ht : t.val < 10 := lt_of_lt_of_eq t.isLt N_3
  funext y
  show k3_pay1 (F := Ideal) (iblk3 V c 0 t) (iblk3 V c 1 t) y = whole (V c main_v71) (V c main_v72) (((cfg3.win 2).blk t).view.emb y)
  refine stored_rows (V c main_v71) (V c main_v72) (iblk3 V c 0 t) (iblk3 V c 1 t) (t.val * 10000) (by omega)
    ?_ ?_ y (((cfg3.win 2).blk t).view.emb y) ?_ ?_
  · intro p k
    show V c main_v71 (((cfg3.win 0).blk t).view.emb (ix2 p k)) = V c main_v71 (ix2 ⟨t.val * 10000 + p.val, _⟩ k)
    refine congrArg (V c main_v71) ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * k.val = k.val; omega
  · intro k
    show V c main_v72 (((cfg3.win 1).blk t).view.emb (ix2 (0 : Fin 1) k)) = V c main_v72 (ix2 (0 : Fin 1) k)
    refine congrArg (V c main_v72) ?_
    funext a; apply Fin.ext
    match a with
    | ⟨0, _⟩ => show win3_1.index t (0 : Fin 2) * 1 + 1 * 0 = 0; omega
    | ⟨1, _⟩ => show win3_1.index t (1 : Fin 2) * 64 + 1 * k.val = k.val; omega
  · show win3_2.index t (0 : Fin 2) * 10000 + 1 * (y 0).val = t.val * 10000 + (y 0).val; omega
  · show win3_2.index t (1 : Fin 2) * 64 + 1 * (y 1).val = (y 1).val; omega

/-- An index of the output is in point t's block iff each coordinate is in the block's range. -/
theorem mem_block (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v73).slice (win3_2.rect t)).set ↔ _
  rw [View.set_slice_whole, Rect.mem_set_unit]
  exact Iff.rfl

/-- Row r of the output is in the block of point r / 10000. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, lt_of_lt_of_eq (show (i 0).val / 10000 < 10 by omega) N_3.symm⟩
  obtain ⟨e0, e1, e2, e3, e4, e5⟩ := index_facts t
  have e4' : win3_2.index t (0 : Fin 2) = (i 0).val / 10000 := e4
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the launch the output array is the whole array of the two arrays the launch was entered with. -/
theorem final (c : Dev nD) : (dat3 V c).arrAt 2 cfg3.N = whole (V c main_v71) (V c main_v72) :=
  (dat3 V c).arrAt_eq_of_cover 2 (whole (V c main_v71) (V c main_v72)) (fun t _ => flushed_eq V c t) covered

end Cert.KernelIdeal.LastRectifier

end
-- ==== Proof.Layer3.lean ====
/-
  The third layer, from the third launch's result to the fourth launch's result. The stretch between them aggregates the third
  product along the edges as before and recasts the bias vector b3 to one row; the fourth launch leaves max(A3(r,j) + b3(j), 0),
  which is the reference's max(A3 + lifted b3, lifted 0). Each buffer equals the reference's stage of the same arguments.
-/
import proofs.«143302_j64991445123451_2_alg».proof.Proof.Layer2
import proofs.«143302_j64991445123451_2_alg».proof.Proof.LastRectifier

set_option maxRecDepth 16384

noncomputable section

namespace Cert.KernelIdeal.Layer3

open Cert.KernelIdeal Cert.KernelIdeal.Gen
open Idealize.ShloMosaic Idealize.ShloMosaic.TcCoe Idealize.SL.Sem Idealize.ShloMosaic.StableHlo
open Cert.ReferenceIdeal.ReadP (val_main_v77 val_main_v81)
open Cert.KernelIdeal.Edges (arg0 arg1 arg3 arg4 arg5 arg6 arg7 arg8)

variable (m : (ℓ : Loc nD τ sig) → Buf (Elt Ideal) ℓ) (ρ : Dev nD → PrngReg)

/-- When the fourth launch is entered: the aggregated features are the reference's. -/
theorem aggregate_entry (c : Dev nD) :
    W9 m ρ c (Proc.devRef .tc main_v71) = val_main_v77 (F := Ideal) (arg0 m c) (arg1 m c) (arg3 m c) (arg4 m c) (arg5 m c) (arg6 m c) (arg7 m c) := by
  show StableHlo.after hostOps3 (W8 m ρ c) (Proc.devRef .tc main_v71) = _
  after_results_simp
  rw [Layer2.hidden_exit m ρ c, Carried.src_at8 m ρ c, Carried.dst_at8 m ρ c, Carried.nrm_at8 m ρ c,
    Edges.src_entry m ρ c, Edges.dst_entry m ρ c, Edges.nrm_entry m ρ c]
  rfl

/-- When the fourth launch is entered: its bias row is the bias vector b3 recast to one row. -/
theorem bias_entry (c : Dev nD) :
    W9 m ρ c (Proc.devRef .tc main_v72) = shapeCast S1x64 (arg8 m c) shapeCasts_S64_S1x64 := by
  show StableHlo.after hostOps3 (W8 m ρ c) (Proc.devRef .tc main_v72) = _
  after_results
  rw [Carried.arg8_at8 m ρ c]
  rfl

/-- After the fourth launch: its result buffer holds the reference's rectified third layer. -/
theorem rectified_exit (c : Dev nD) :
    W10 m ρ c (Proc.devRef .tc main_v73) = val_main_v81 (F := Ideal) (arg0 m c) (arg1 m c) (arg3 m c) (arg4 m c) (arg5 m c) (arg6 m c) (arg7 m c) (arg8 m c) := by
  refine (W10_arr m ρ c 2).trans ?_
  refine (LastRectifier.final (V9 m ρ) c).trans ?_
  show LastRectifier.whole (W9 m ρ c (Proc.devRef .tc main_v71)) (W9 m ρ c (Proc.devRef .tc main_v72)) = _
  rw [aggregate_entry m ρ c, bias_entry m ρ c]
  exact BiasRelu.biasRelu_eq_host (A := 100000) (M := 64)
    (val_main_v77 (F := Ideal) (arg0 m c) (arg1 m c) (arg3 m c) (arg4 m c) (arg5 m c) (arg6 m c) (arg7 m c)) (arg8 m c) shapeCasts_S64_S1x64
    Cert.ReferenceIdeal.Facts₀.bcast_S64_S1x64_1 Cert.ReferenceIdeal.Facts₀.bcast_S1x64_S100000x64_0_1 Cert.ReferenceIdeal.Facts₀.bcast_S_S100000x64

end Cert.KernelIdeal.Layer3

end
-- ==== Proof.Head.lean ====
/-
  The last launch, the two dense layers on the pooled features: out = max(P·W1 + b1, 0)·W2 + b2 with P of shape [128, 64], W1
  [64, 10], b1 a row [1, 10], W2 [10, 1], b2 a row [1, 1]. The launch has ONE grid point and every window's block is its whole
  array. The body rounds P, W1, the rectified hidden layer and W2 to bf16 (the identity on the extended reals), multiplies into
  zero accumulators, repeats each bias row down the rows and rectifies with a splat zero. Read entry by entry that is
  Σ_h max(Σ_k P(r,k)·W1(k,h) + b1(0,h), 0)·W2(h,0) + b2(0,0), stated here with the two named functions "rows times weights plus a
  bias row" and "the rectifier on every entry". So after the launch the output array is that function of the five arrays the
  launch was entered with. The zero is one f32 word and is never evaluated.
-/
import proofs.«143302_j64991445123451_2_alg».proof.Proof.Gen.KernelIdeal.Frame
import proofs.«143302_j64991445123451_2_alg».proof.Proof.LibAffine
import proofs.«143302_j64991445123451_2_alg».proof.Proof.LibSoftplusLayers
import proofs.«143302_j64991445123451_2_alg».proof.Proof.LibReluMlp
import Idealize.ShloMosaic.Lib.Pipeline.Value
import Idealize.ShloMosaic.Lib.ValueIdx

set_option maxRecDepth 16384

noncomputable section

namespace Cert.KernelIdeal.Head

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the buffers' contents when the launch is entered: any
variable (V : (c : Dev nD) → (b : Ref sig .tc) → Buf (Elt Ideal) ((c : Thread nD τ).loc b))

theorem origin : (![0, 0] : Fin 2 → Nat) = fun _ => 0 := funext fun a => by fin_cases a <;> rfl

/-- The two printed contractions are plain ones: rows by columns. -/
theorem dims1 : dot_S128x64_S64x10_S128x10_1_0_0_1_n_n = DotDims.plain 128 64 10 := rfl
theorem dims2 : dot_S128x10_S10x1_S128x1_1_0_0_1_n_n = DotDims.plain 128 10 1 := rfl

/-- The head as one function of its five arrays: a dense layer, the rectifier, a dense layer. -/
abbrev whole (P : FVec Ideal S128x64 .f32) (W1 : FVec Ideal S64x10 .f32) (b1 : FVec Ideal S1x10 .f32) (W2 : FVec Ideal S10x1 .f32)
    (b2 : FVec Ideal S1x1 .f32) : FVec Ideal S128x1 .f32 :=
  Affine.affine (A := 128) (K := 10) (M := 1)
    (ReluMlp.reluV (Affine.affine (A := 128) (K := 64) (M := 10) P (truncf .bf16 W1 bitsLt_bf16_f32) b1))
    (truncf .bf16 W2 bitsLt_bf16_f32) b2

/-- What the body stores is that function of what it loaded. -/
theorem stored_eq (x0 : Vec Ideal S128x64 .f32) (x1 : Vec Ideal S64x10 .f32) (x2 : Vec Ideal S1x10 .f32) (x3 : Vec Ideal S10x1 .f32)
    (x4 : Vec Ideal S1x1 .f32) : k4_pay1 (F := Ideal) x0 x1 x2 x3 x4 = whole x0 x1 x2 x3 x4 := by
  show SoftplusLayers.denseK (A := 128) (K := 10) (M := 1) dot_S128x10_S10x1_S128x1_1_0_0_1_n_n bitsLt_bf16_f32 shapeCasts_S1x1_S1x1 broadcasts_S1x1_S128x1
      (ReluMlp.reluK (SoftplusLayers.denseK (A := 128) (K := 64) (M := 10) dot_S128x64_S64x10_S128x10_1_0_0_1_n_n bitsLt_bf16_f32 shapeCasts_S1x10_S1x10
        broadcasts_S1x10_S128x10 (shapeCast S128x64 x0 shapeCasts_S128x64_S128x64) x1 x2)) x3 x4 = _
  rw [shapeCast_self, SoftplusLayers.denseK_eq dims1, ReluMlp.reluK_eq, SoftplusLayers.denseK_eq dims2]

/-- Blocks that are the whole arrays store the whole function, index for index. -/
theorem stored_whole (P : FVec Ideal S128x64 .f32) (W1 : FVec Ideal S64x10 .f32) (b1 : FVec Ideal S1x10 .f32) (W2 : FVec Ideal S10x1 .f32)
    (b2 : FVec Ideal S1x1 .f32)
    (x0 : Vec Ideal S128x64 .f32) (x1 : Vec Ideal S64x10 .f32) (x2 : Vec Ideal S1x10 .f32) (x3 : Vec Ideal S10x1 .f32) (x4 : Vec Ideal S1x1 .f32)
    (h0 : ∀ j, x0 j = P j) (h1 : ∀ j, x1 j = W1 j) (h2 : ∀ j, x2 j = b1 j) (h3 : ∀ j, x3 j = W2 j) (h4 : ∀ j, x4 j = b2 j)
    (y i : S128x1.Idx) (hi : i = y) : k4_pay1 (F := Ideal) x0 x1 x2 x3 x4 y = whole P W1 b1 W2 b2 i := by
  obtain rfl : x0 = P := funext h0
  obtain rfl : x1 = W1 := funext h1
  obtain rfl : x2 = b1 := funext h2
  obtain rfl : x3 = W2 := funext h3
  obtain rfl : x4 = b2 := funext h4
  rw [hi, stored_eq]

/-- The printed index maps at the launch's one point: every block is the first and only one. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- What the point writes back is the whole function of the arrays the launch was entered with, read through the block. -/
theorem flushed_eq (c : Dev nD) (t : Fin cfg4.N) :
    (dat4 V c).flushed 5 t = ((cfg4.win 5).blk t).view.read (Elt Ideal)
      (whole (V c main_v85) (V c main_arg9) (V c main_v86) (V c main_arg11) (V c main_v87)) := by
  show (cfg4.win 5).cut (grid4.coords t) ((dat4 V c).after 5 t) = _
  rw [after4_5]
  unfold out4_5
  rw [View.canon_unit_zero origin]
  simp only [View.ld_unit_zero (S := S128x64) origin, View.ld_unit_zero (S := S64x10) origin, View.ld_unit_zero (S := S1x10) origin,
    View.ld_unit_zero (S := S10x1) origin, View.ld_unit_zero (S := S1x1) origin]
  obtain ⟨e0, e1, e2, e3, e4, e5, e6, e7, e8, e9, e10, e11⟩ := index_facts t
  funext y
  show k4_pay1 (F := Ideal) (iblk4 V c 0 t) (iblk4 V c 1 t) (iblk4 V c 2 t) (iblk4 V c 3 t) (iblk4 V c 4 t) y
    = whole (V c main_v85) (V c main_arg9) (V c main_v86) (V c main_arg11) (V c main_v87) (((cfg4.win 5).blk t).view.emb y)
  refine stored_whole (V c main_v85) (V c main_arg9) (V c main_v86) (V c main_arg11) (V c main_v87)
    (iblk4 V c 0 t) (iblk4 V c 1 t) (iblk4 V c 2 t) (iblk4 V c 3 t) (iblk4 V c 4 t) ?_ ?_ ?_ ?_ ?_ y (((cfg4.win 5).blk t).view.emb y) ?_
  · intro j
    show V c main_v85 (((cfg4.win 0).blk t).view.emb j) = V c main_v85 j
    refine congrArg (V c main_v85) ?_
    funext a; apply Fin.ext
    match a with
    | ⟨0, _⟩ => show win4_0.index t (0 : Fin 2) * 128 + 1 * (j 0).val = (j 0).val; omega
    | ⟨1, _⟩ => show win4_0.index t (1 : Fin 2) * 64 + 1 * (j 1).val = (j 1).val; omega
  · intro j
    show V c main_arg9 (((cfg4.win 1).blk t).view.emb j) = V c main_arg9 j
    refine congrArg (V c main_arg9) ?_
    funext a; apply Fin.ext
    match a with
    | ⟨0, _⟩ => show win4_1.index t (0 : Fin 2) * 64 + 1 * (j 0).val = (j 0).val; omega
    | ⟨1, _⟩ => show win4_1.index t (1 : Fin 2) * 10 + 1 * (j 1).val = (j 1).val; omega
  · intro j
    show V c main_v86 (((cfg4.win 2).blk t).view.emb j) = V c main_v86 j
    refine congrArg (V c main_v86) ?_
    funext a; apply Fin.ext
    match a with
    | ⟨0, _⟩ => show win4_2.index t (0 : Fin 2) * 1 + 1 * (j 0).val = (j 0).val; omega
    | ⟨1, _⟩ => show win4_2.index t (1 : Fin 2) * 10 + 1 * (j 1).val = (j 1).val; omega
  · intro j
    show V c main_arg11 (((cfg4.win 3).blk t).view.emb j) = V c main_arg11 j
    refine congrArg (V c main_arg11) ?_
    funext a; apply Fin.ext
    match a with
    | ⟨0, _⟩ => show win4_3.index t (0 : Fin 2) * 10 + 1 * (j 0).val = (j 0).val; omega
    | ⟨1, _⟩ => show win4_3.index t (1 : Fin 2) * 1 + 1 * (j 1).val = (j 1).val; omega
  · intro j
    show V c main_v87 (((cfg4.win 4).blk t).view.emb j) = V c main_v87 j
    refine congrArg (V c main_v87) ?_
    funext a; apply Fin.ext
    match a with
    | ⟨0, _⟩ => show win4_4.index t (0 : Fin 2) * 1 + 1 * (j 0).val = (j 0).val; omega
    | ⟨1, _⟩ => show win4_4.index t (1 : Fin 2) * 1 + 1 * (j 1).val = (j 1).val; omega
  · funext a; apply Fin.ext
    match a with
    | ⟨0, _⟩ => show win4_5.index t (0 : Fin 2) * 128 + 1 * (y 0).val = (y 0).val; omega
    | ⟨1, _⟩ => show win4_5.index t (1 : Fin 2) * 1 + 1 * (y 1).val = (y 1).val; omega

/-- An index of the output is in the point's block iff each coordinate is in the block's range. -/
theorem mem_block (t : Fin cfg4.N) (i : S128x1.Idx) :
    i ∈ ((cfg4.win 5).blk t).view.set ↔ ∀ a : Fin 2, win4_5.index t a * S128x1.size a ≤ (i a).val ∧ (i a).val < win4_5.index t a * S128x1.size a + S128x1.size a := by
  show i ∈ ((View.whole main_v88).slice (win4_5.rect t)).set ↔ _
  rw [View.set_slice_whole, Rect.mem_set_unit]
  exact Iff.rfl

/-- The one block is the whole output. -/
theorem covered (i : S128x1.Idx) : ∃ t : Fin cfg4.N, (cfg4.win 5).flush t = true ∧ i ∈ ((cfg4.win 5).blk t).view.set := by
  have hi0 : (i 0).val < 128 := (i 0).isLt
  have hi1 : (i 1).val < 1 := (i 1).isLt
  obtain ⟨e0, e1, e2, e3, e4, e5, e6, e7, e8, e9, e10, e11⟩ := index_facts t4_0
  refine ⟨t4_0, flush4_5 t4_0, ?_⟩
  rw [mem_block]
  intro a
  match a with
  | ⟨0, _⟩ => show win4_5.index t4_0 (0 : Fin 2) * 128 ≤ (i 0).val ∧ (i 0).val < win4_5.index t4_0 (0 : Fin 2) * 128 + 128; omega
  | ⟨1, _⟩ => show win4_5.index t4_0 (1 : Fin 2) * 1 ≤ (i 1).val ∧ (i 1).val < win4_5.index t4_0 (1 : Fin 2) * 1 + 1; omega

/-- After the launch the output array is the head's function of the five arrays the launch was entered with. -/
theorem final (c : Dev nD) : (dat4 V c).arrAt 5 cfg4.N
    = whole (V c main_v85) (V c main_arg9) (V c main_v86) (V c main_arg11) (V c main_v87) :=
  (dat4 V c).arrAt_eq_of_cover 5 (whole (V c main_v85) (V c main_arg9) (V c main_v86) (V c main_arg11) (V c main_v87))
    (fun t _ => flushed_eq V c t) covered

end Cert.KernelIdeal.Head

end
-- ==== Proof.Readout.lean ====
/-
  The read-out, from the fourth launch's result to the kernel's result. The stretch before the last launch scatter-adds the
  rectified node features by graph number, counts the nodes of each graph the same way, and divides the sums by
  max(count, 1) — the reference's own pooling operations on its own third layer — and recasts the two bias vectors of the head
  to one-row matrices; the last launch leaves max(P·Wa + ba, 0)·Wb + bb, which is the reference's dot_general + lifted bias, max
  with a lifted zero, dot_general + lifted bias. So the kernel's result buffer ends at the reference's result as a function of the
  thirteen arguments.
-/
import proofs.«143302_j64991445123451_2_alg».proof.Proof.Layer3
import proofs.«143302_j64991445123451_2_alg».proof.Proof.Head

set_option maxRecDepth 16384

noncomputable section

namespace Cert.KernelIdeal.Readout

open Cert.KernelIdeal Cert.KernelIdeal.Gen
open Idealize.ShloMosaic Idealize.ShloMosaic.TcCoe Idealize.SL.Sem Idealize.ShloMosaic.StableHlo
open Cert.ReferenceIdeal.ReadP (val_main_v81 val_main_v93 val_main_v102)
open Cert.KernelIdeal.Edges (arg0 arg1 arg2 arg3 arg4 arg5 arg6 arg7 arg8 arg9 arg10 arg11 arg12)

variable (m : (ℓ : Loc nD τ sig) → Buf (Elt Ideal) ℓ) (ρ : Dev nD → PrngReg)

/-- When the last launch is entered: the pooled features are the reference's. -/
theorem pooled_entry (c : Dev nD) :
    W11 m ρ c (Proc.devRef .tc main_v85) = val_main_v93 (F := Ideal) (arg0 m c) (arg1 m c) (arg2 m c) (arg3 m c) (arg4 m c) (arg5 m c) (arg6 m c) (arg7 m c) (arg8 m c) := by
  show StableHlo.after hostOps4 (W10 m ρ c) (Proc.devRef .tc main_v85) = _
  after_results_simp
  rw [Layer3.rectified_exit m ρ c, Carried.arg2_at10 m ρ c]
  rfl

/-- When the last launch is entered: the head's two bias rows are the bias vectors recast to one row each. -/
theorem bias1_entry (c : Dev nD) :
    W11 m ρ c (Proc.devRef .tc main_v86) = shapeCast S1x10 (arg10 m c) shapeCasts_S10_S1x10 := by
  show StableHlo.after hostOps4 (W10 m ρ c) (Proc.devRef .tc main_v86) = _
  after_results
  rw [Carried.arg10_at10 m ρ c]
  rfl

theorem bias2_entry (c : Dev nD) :
    W11 m ρ c (Proc.devRef .tc main_v87) = shapeCast S1x1 (arg12 m c) shapeCasts_S1_S1x1 := by
  show StableHlo.after hostOps4 (W10 m ρ c) (Proc.devRef .tc main_v87) = _
  after_results
  rw [Carried.arg12_at10 m ρ c]
  rfl

/-- The reference's last five stages are two dense layers with the rectifier between. -/
theorem ref_head (c : Dev nD) :
    val_main_v102 (F := Ideal) (arg0 m c) (arg1 m c) (arg2 m c) (arg3 m c) (arg4 m c) (arg5 m c) (arg6 m c) (arg7 m c) (arg8 m c) (arg9 m c) (arg10 m c) (arg11 m c) (arg12 m c)
      = SoftplusLayers.denseH (A := 128) (K := 10) (M := 1) (DotDims.plain 128 10 1) Cert.ReferenceIdeal.Facts₀.bcast_S1_S1x1_1 Cert.ReferenceIdeal.Facts₀.bcast_S1x1_S128x1_0_1
          (ReluMlp.reluH Cert.ReferenceIdeal.Facts₀.bcast_S_S128x10
            (SoftplusLayers.denseH (A := 128) (K := 64) (M := 10) (DotDims.plain 128 64 10) Cert.ReferenceIdeal.Facts₀.bcast_S10_S1x10_1 Cert.ReferenceIdeal.Facts₀.bcast_S1x10_S128x10_0_1
              (val_main_v93 (F := Ideal) (arg0 m c) (arg1 m c) (arg2 m c) (arg3 m c) (arg4 m c) (arg5 m c) (arg6 m c) (arg7 m c) (arg8 m c)) (arg9 m c) (arg10 m c)))
          (arg11 m c) (arg12 m c) := rfl

/-- After the last launch: the result buffer holds the reference's result. -/
theorem result_exit (c : Dev nD) :
    W12 m ρ c (Proc.devRef .tc main_v88) = val_main_v102 (F := Ideal) (arg0 m c) (arg1 m c) (arg2 m c) (arg3 m c) (arg4 m c) (arg5 m c) (arg6 m c) (arg7 m c) (arg8 m c) (arg9 m c) (arg10 m c) (arg11 m c) (arg12 m c) := by
  refine (W12_arr m ρ c 5).trans ?_
  refine (Head.final (V11 m ρ) c).trans ?_
  show Head.whole (W11 m ρ c (Proc.devRef .tc main_v85)) (W11 m ρ c (Proc.devRef .tc main_arg9))
    (W11 m ρ c (Proc.devRef .tc main_v86)) (W11 m ρ c (Proc.devRef .tc main_arg11)) (W11 m ρ c (Proc.devRef .tc main_v87)) = _
  rw [pooled_entry m ρ c, bias1_entry m ρ c, bias2_entry m ρ c, Carried.arg9_at11 m ρ c, Carried.arg11_at11 m ρ c, ref_head m c]
  exact LayerForms.head_eq_host (A := 128) (K := 64) (H := 10) (M := 1)
    (val_main_v93 (F := Ideal) (arg0 m c) (arg1 m c) (arg2 m c) (arg3 m c) (arg4 m c) (arg5 m c) (arg6 m c) (arg7 m c) (arg8 m c)) (arg9 m c) (arg10 m c) (arg11 m c) (arg12 m c) bitsLt_bf16_f32
    shapeCasts_S10_S1x10 shapeCasts_S1_S1x1 Cert.ReferenceIdeal.Facts₀.bcast_S10_S1x10_1 Cert.ReferenceIdeal.Facts₀.bcast_S1x10_S128x10_0_1 Cert.ReferenceIdeal.Facts₀.bcast_S_S128x10
    Cert.ReferenceIdeal.Facts₀.bcast_S1_S1x1_1 Cert.ReferenceIdeal.Facts₀.bcast_S1x1_S128x1_0_1

end Cert.KernelIdeal.Readout

end
-- ==== Proof.KernelValue.lean ====
/-
  The idealized kernel's run with its result as a function of the arguments. Every weakly fair execution of @main ends with
  the result buffer at the last boundary's contents read at that buffer (the run with the result named), and that contents is
  the reference's last stage of the thirteen arguments as launched (the walk through the five launches and the stretches between
  them). Together: the kernel ends with the reference's result function of its own arguments, the arguments unchanged.
-/
import proofs.«143302_j64991445123451_2_alg».proof.Proof.KernelRun
import proofs.«143302_j64991445123451_2_alg».proof.Proof.Readout

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Cert.ReferenceIdeal.ReadP (val_main_v102)
open Cert.KernelIdeal.Edges (arg0 arg1 arg2 arg3 arg4 arg5 arg6 arg7 arg8 arg9 arg10 arg11 arg12)

variable (m : (ℓ : Loc nD τ sig) → Buf (Elt Ideal) ℓ) (ρ : Dev nD → PrngReg)

/-- The kernel's run: the result buffer at the reference's result function of the launch arguments. -/
theorem run : θ_run (defs (F := Ideal)) (onTc (τ := τ) (main (F := Ideal))) ⟨m, fun _ => 0, ρ⟩ (fun r => ∀ c : Dev nD,
      r.2.mem ((c.tc : Thread nD τ).loc main_v88) = val_main_v102 (F := Ideal) (arg0 m c) (arg1 m c) (arg2 m c) (arg3 m c) (arg4 m c) (arg5 m c) (arg6 m c) (arg7 m c) (arg8 m c) (arg9 m c) (arg10 m c) (arg11 m c) (arg12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (Readout.result_exit m ρ c), (h c).2⟩) (Named.run (F := Ideal) m ρ)

end Cert.KernelIdeal.Result

end
-- ==== Proof.lean ====
/-
  The proof of `Cert.Claim`: a three-layer graph convolution with mean pooling and a two-layer head, whose dense steps are five
  row-tiled TPU kernels, against the plain array program.

  Both programs compute, from the node features X, the edge index, the graph numbers and the weights: the source and
  destination lists with self loops; the in-degrees d as a scatter-add of ones; per edge the product of d^(-1/2) at its two ends
  (0 where d = 0); three times h ↦ max(S(h·W) + b, 0), where S gathers rows along the sources, scales by the edge's factor and
  scatter-adds along the destinations; the per-graph sums divided by max(count, 1); and out = max(P·Wa + ba, 0)·Wb + bb. The kernel
  moves "+ b, max(·, 0)" of each layer into the launch that multiplies by the next layer's weights, tiles the 100000 rows in ten
  blocks, and rounds matrix operands to bf16. Over the extended reals the rounding is the identity, a block of rows of a product
  or of a row-wise map is that block of the whole array, and the gathers, scatters and the division are the same host
  operations on both sides applied to equal arrays. No law of arithmetic beyond reading a finite sum is used, so the
  precondition (finite inputs) is never opened.

  The three frames are the generated ones (the reference's is its generated run with the result dropped); `preserves` is `True`
  (the ideal pass rewrote nothing); `algebraic` pairs the kernel's run, with its result read as the reference's last stage of the
  kernel's own arguments, and the reference's run from arguments that agree.
-/
import proofs.«143302_j64991445123451_2_alg».proof.Defs
import proofs.«143302_j64991445123451_2_alg».proof.Proof.Gen.Kernel
import proofs.«143302_j64991445123451_2_alg».proof.Proof.Gen.Kernel.Frame
import proofs.«143302_j64991445123451_2_alg».proof.Proof.Gen.KernelIdeal
import proofs.«143302_j64991445123451_2_alg».proof.Proof.Gen.KernelIdeal.Frame
import proofs.«143302_j64991445123451_2_alg».proof.Proof.Gen.ReferenceIdeal
import proofs.«143302_j64991445123451_2_alg».proof.Proof.Gen.Pre_finite_inputs
import proofs.«143302_j64991445123451_2_alg».proof.Proof.RefRun
import proofs.«143302_j64991445123451_2_alg».proof.Proof.RefRead
import proofs.«143302_j64991445123451_2_alg».proof.Proof.KernelValue

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The kernel ends at the reference's result function of its own arguments; the reference, run from arguments that agree, ends
    at the same function of its own, which are the kernel's. -/
theorem algebraic : Cert.algebraic_KernelIdeal_ReferenceIdeal := by
  intro m ρ m' ρ' _ hagree
  refine ⟨fun c => Cert.ReferenceIdeal.ReadP.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v102_eq]
  obtain ⟨a0, a1, a2, a3, a4, a5, a6, a7, a8, a9, a10, a11, a12⟩ := hagree c
  rw [a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
